-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x133 : Shape := ⟨2, ![50000, 133]⟩
abbrev S2x800000 : Shape := ⟨2, ![2, 800000]⟩
abbrev S800000 : Shape := ⟨1, ![800000]⟩
abbrev S800000x14 : Shape := ⟨2, ![800000, 14]⟩
abbrev S50000 : Shape := ⟨1, ![50000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x133 : S_.BroadcastsInDim S50000x133 (![] : Fin 0 → Fin S50000x133.rank)
  reducesTo_S50000x133_S_d0_1 : S50000x133.ReducesTo [0, 1] S_
  h_S_ : 0 < S_.numel
  bcast_S_S800000x14 : S_.BroadcastsInDim S800000x14 (![] : Fin 0 → Fin S800000x14.rank)
  reducesTo_S800000x14_S_d0_1 : S800000x14.ReducesTo [0, 1] S_
  bcast_S_S147x128 : S_.BroadcastsInDim S147x128 (![] : Fin 0 → Fin S147x128.rank)
  reducesTo_S147x128_S_d0_1 : S147x128.ReducesTo [0, 1] S_
  bcast_S_S128x128 : S_.BroadcastsInDim S128x128 (![] : Fin 0 → Fin S128x128.rank)
  reducesTo_S128x128_S_d0_1 : S128x128.ReducesTo [0, 1] S_
  bcast_S_S261x128 : S_.BroadcastsInDim S261x128 (![] : Fin 0 → Fin S261x128.rank)
  reducesTo_S261x128_S_d0_1 : S261x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128 .f32) (main_arg11 : FVec F S128x1 .f32) (main_arg12 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg11
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg7 : FVec F S261x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S261x128 .f32 := Host.absf main_arg7
  let main_cst_6 : FVec F S_ .f32 := constant S_ .f32 0x7F800000#32
  let main_v20 : FVec F S261x128 .f32 := broadcastInDim S261x128 ![] bcast_S_S261x128 main_cst_6
  let main_v21 : IVec S261x128 1 := cmpf .olt main_v19 main_v20
  let main_c_7 : IVec S_ 1 := constantI S_ 1 1#1
  let main_v22 : IVec S_ 1 := (fun x v => Host.reduce IntOp.andi x v reducesTo_S261x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S50000x133 .f32) (main_arg1 : IVec S2x800000 32) (main_arg2 : IVec S800000 32) (main_arg3 : FVec F S800000x14 .f32) (main_arg4 : IVec S50000 32) (main_arg5 : FVec F S147x128 .f32) (main_arg6 : FVec F S128x128 .f32) (main_arg7 : FVec F S261x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S50000x133 .f32 := Host.absf main_arg0
  let main_cst : FVec F S_ .f32 := constant S_ .f32 0x7F800000#32
  let main_v1 : FVec F S50000x133 .f32 := broadcastInDim S50000x133 ![] bcast_S_S50000x133 main_cst
  let main_v2 : IVec S50000x133 1 := cmpf .olt main_v0 main_v1
  let main_c : IVec S_ 1 := constantI S_ 1 1#1
  let main_v3 : IVec S_ 1 := (fun x v => Host.reduce IntOp.andi x v reducesTo_S50000x133_S_d0_1 h_S_) main_v2 main_c
  let main_v4 : FVec F S800000x14 .f32 := Host.absf main_arg3
  let main_cst_0 : FVec F S_ .f32 := constant S_ .f32 0x7F800000#32
  let main_v5 : FVec F S800000x14 .f32 := broadcastInDim S800000x14 ![] bcast_S_S800000x14 main_cst_0
  let main_v6 : IVec S800000x14 1 := cmpf .olt main_v4 main_v5
  let main_c_1 : IVec S_ 1 := constantI S_ 1 1#1
  let main_v7 : IVec S_ 1 := (fun x v => Host.reduce IntOp.andi x v reducesTo_S800000x14_S_d0_1 h_S_) main_v6 main_c_1
  let main_v8 : IVec S_ 1 := andi main_v3 main_v7
  let main_v9 : FVec F S147x128 .f32 := Host.absf main_arg5
  let main_cst_2 : FVec F S_ .f32 := constant S_ .f32 0x7F800000#32
  let main_v10 : FVec F S147x128 .f32 := broadcastInDim S147x128 ![] bcast_S_S147x128 main_cst_2
  let main_v11 : IVec S147x128 1 := cmpf .olt main_v9 main_v10
  let main_c_3 : IVec S_ 1 := constantI S_ 1 1#1
  let main_v12 : IVec S_ 1 := (fun x v => Host.reduce IntOp.andi x v reducesTo_S147x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_v13 main_v16
-- ==== Kernel.lean ====
abbrev S50000x133 : Shape := ⟨2, ![50000, 133]⟩
abbrev S2x800000 : Shape := ⟨2, ![2, 800000]⟩
abbrev S800000 : Shape := ⟨1, ![800000]⟩
abbrev S800000x14 : Shape := ⟨2, ![800000, 14]⟩
abbrev S50000 : Shape := ⟨1, ![50000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x133 : Shape := ⟨2, ![800000, 133]⟩
abbrev S133x128 : Shape := ⟨2, ![133, 128]⟩
abbrev S14x128 : Shape := ⟨2, ![14, 128]⟩
abbrev S1x128 : Shape := ⟨2, ![1, 128]⟩
abbrev S800000x128 : Shape := ⟨2, ![800000, 128]⟩
abbrev S10000x133 : Shape := ⟨2, ![10000, 133]⟩
abbrev S10000x14 : Shape := ⟨2, ![10000, 14]⟩
abbrev S10000x128 : Shape := ⟨2, ![10000, 128]⟩
abbrev S50000x128 : Shape := ⟨2, ![50000, 128]⟩
abbrev S5000x133 : Shape := ⟨2, ![5000, 133]⟩
abbrev S5000x128 : Shape := ⟨2, ![5000, 128]⟩
abbrev S512x128 : Shape := ⟨2, ![512, 128]⟩
abbrev S50000x1 : Shape := ⟨2, ![50000, 1]⟩
abbrev S512x1 : Shape := ⟨2, ![512, 1]⟩
abbrev S1x1 : Shape := ⟨2, ![1, 1]⟩

abbrev nBuf : Space → Nat
  | .hbm => 129
  | .vmem => 31
  | .smem => 0
  | _ => 0

abbrev hbmTy0_0 (i : Nat) : BufTy := match i % 128 with
  | 0 => ⟨S50000x133, .f32⟩
  | 1 => ⟨S2x800000, .i32⟩
  | 2 => ⟨S800000, .i32⟩
  | 3 => ⟨S800000x14, .f32⟩
  | 4 => ⟨S50000, .i32⟩
  | 5 => ⟨S147x128, .f32⟩
  | 6 => ⟨S128x128, .f32⟩
  | 7 => ⟨S261x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000x133, .bf16⟩
  | 18 => ⟨S800000x14, .bf16⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x133, .bf16⟩
  | 28 => ⟨S133x128, .f32⟩
  | 29 => ⟨S133x128, .bf16⟩
  | 30 => ⟨S14x128, .f32⟩
  | 31 => ⟨S14x128, .bf16⟩
  | 32 => ⟨S128x128, .bf16⟩
  | 33 => ⟨S133x128, .f32⟩
  | 34 => ⟨S133x128, .bf16⟩
  | 35 => ⟨S128x128, .f32⟩
  | 36 => ⟨S128x128, .bf16⟩
  | 37 => ⟨S1x128, .f32⟩
  | 38 => ⟨S800000x128, .bf16⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .bf16⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .bf16⟩
  | 54 => ⟨S800000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .bf16⟩
  | 64 => ⟨S800000x128, .f32⟩
  | 65 => ⟨S800000x128, .f32⟩
  | 66 => ⟨S800000x128, .bf16⟩
  | 67 => ⟨S800000x128, .bf16⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x128, .bf16⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .bf16⟩
  | 83 => ⟨S800000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .bf16⟩
  | 93 => ⟨S800000x128, .f32⟩
  | 94 => ⟨S800000x128, .f32⟩
  | 95 => ⟨S800000x128, .bf16⟩
  | 96 => ⟨S800000x128, .bf16⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S_, .f32⟩
  | 104 => ⟨S512x128, .f32⟩
  | 105 => ⟨S50000x1, .i32⟩
  | 106 => ⟨S512x128, .f32⟩
  | 107 => ⟨S_, .f32⟩
  | 108 => ⟨S50000x1, .f32⟩
  | 109 => ⟨S_, .f32⟩
  | 110 => ⟨S512x1, .f32⟩
  | 111 => ⟨S50000x1, .i32⟩
  | 112 => ⟨S512x1, .f32⟩
  | 113 => ⟨S_, .f32⟩
  | 114 => ⟨S512x1, .f32⟩
  | 115 => ⟨S512x1, .f32⟩
  | 116 => ⟨S512x128, .f32⟩
  | 117 => ⟨S512x128, .f32⟩
  | 118 => ⟨S512x128, .f32⟩
  | 119 => ⟨S1x128, .f32⟩
  | 120 => ⟨S512x128, .f32⟩
  | 121 => ⟨S512x128, .f32⟩
  | 122 => ⟨S_, .f32⟩
  | 123 => ⟨S512x128, .f32⟩
  | 124 => ⟨S512x128, .f32⟩
  | 125 => ⟨S512x1, .f32⟩
  | 126 => ⟨S1x1, .f32⟩
  | 127 => ⟨S512x1, .f32⟩
  | _ => ⟨S50000x133, .f32⟩

abbrev hbmTy0_1 (i : Nat) : BufTy := match i % 128 with
  | 0 => ⟨S512x1, .f32⟩
  | _ => ⟨S50000x133, .f32⟩

abbrev hbmTy (i : Nat) : BufTy := match i / 128 with
  | 0 => hbmTy0_0 i
  | 1 => hbmTy0_1 i
  | _ => ⟨S50000x133, .f32⟩

abbrev bufTy : (tb : Table) → Fin (tcTables nBuf tb) → BufTy
  | .hbm, ⟨i, _⟩ => hbmTy i
  | .local _ .vmem, ⟨0, _⟩ => ⟨S10000x133, .bf16⟩
  | .local _ .vmem, ⟨1, _⟩ => ⟨S10000x133, .bf16⟩
  | .local _ .vmem, ⟨2, _⟩ => ⟨S10000x14, .bf16⟩
  | .local _ .vmem, ⟨3, _⟩ => ⟨S10000x14, .bf16⟩
  | .local _ .vmem, ⟨4, _⟩ => ⟨S133x128, .bf16⟩
  | .local _ .vmem, ⟨5, _⟩ => ⟨S14x128, .bf16⟩
  | .local _ .vmem, ⟨6, _⟩ => ⟨S10000x128, .bf16⟩
  | .local _ .vmem, ⟨7, _⟩ => ⟨S10000x128, .bf16⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S10000x128, .bf16⟩
  | .local _ .vmem, ⟨14, _⟩ => ⟨S10000x128, .bf16⟩
  | .local _ .vmem, ⟨15, _⟩ => ⟨S10000x128, .bf16⟩
  | .local _ .vmem, ⟨16, _⟩ => ⟨S10000x128, .bf16⟩
  | .local _ .vmem, ⟨17, _⟩ => ⟨S10000x128, .bf16⟩
  | .local _ .vmem, ⟨18, _⟩ => ⟨S10000x128, .bf16⟩
  | .local _ .vmem, ⟨19, _⟩ => ⟨S128x128, .bf16⟩
  | .local _ .vmem, ⟨20, _⟩ => ⟨S10000x128, .bf16⟩
  | .local _ .vmem, ⟨21, _⟩ => ⟨S10000x128, .bf16⟩
  | .local _ .vmem, ⟨22, _⟩ => ⟨S5000x133, .f32⟩
  | .local _ .vmem, ⟨23, _⟩ => ⟨S5000x133, .f32⟩
  | .local _ .vmem, ⟨24, _⟩ => ⟨S5000x128, .f32⟩
  | .local _ .vmem, ⟨25, _⟩ => ⟨S5000x128, .f32⟩
  | .local _ .vmem, ⟨26, _⟩ => ⟨S133x128, .bf16⟩
  | .local _ .vmem, ⟨27, _⟩ => ⟨S128x128, .bf16⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | _, _ => ⟨S50000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_1 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_3 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_6 : Ref sig .tc := ⟨.hbm, 74, rfl⟩
abbrev main_v53 : Ref sig .tc := ⟨.hbm, 75, rfl⟩
abbrev main_v54 : Ref sig .tc := ⟨.hbm, 76, rfl⟩
abbrev main_c_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_8 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_14 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_15 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x133 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x14 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S133x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S147x128_S133x128_0_0 : S147x128.Slices ![0, 0] S133x128
  slices_S147x128_S14x128_133_0 : S147x128.Slices ![133, 0] S14x128
  slices_S261x128_S133x128_0_0 : S261x128.Slices ![0, 0] S133x128
  slices_S261x128_S128x128_133_0 : S261x128.Slices ![133, 0] S128x128
  shapeCasts_S128_S1x128 : S128.ShapeCasts S1x128
  inb_S10000x133_S10000x133_0_0 : ∀ a, (![0, 0] : Fin 2 → Nat) a + S10000x133.size a ≤ S10000x133.size a
  h_S10000x133 : 0 < S10000x133.numel
  shapeCasts_S10000x133_S10000x133 : S10000x133.ShapeCasts S10000x133
  inb_S10000x14_S10000x14_0_0 : ∀ a, (![0, 0] : Fin 2 → Nat) a + S10000x14.size a ≤ S10000x14.size a
  h_S10000x14 : 0 < S10000x14.numel
  shapeCasts_S10000x14_S10000x14 : S10000x14.ShapeCasts S10000x14
  inb_S133x128_S133x128_0_0 : ∀ a, (![0, 0] : Fin 2 → Nat) a + S133x128.size a ≤ S133x128.size a
  h_S133x128 : 0 < S133x128.numel
  shapeCasts_S133x128_S133x128 : S133x128.ShapeCasts S133x128
  inb_S14x128_S14x128_0_0 : ∀ a, (![0, 0] : Fin 2 → Nat) a + S14x128.size a ≤ S14x128.size a
  h_S14x128 : 0 < S14x128.numel
  shapeCasts_S14x128_S14x128 : S14x128.ShapeCasts S14x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S50000x128 : S_.BroadcastsInDim S50000x128 (![] : Fin 0 → Fin S50000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x133_S5000x133_0_0 : ∀ a, (![0, 0] : Fin 2 → Nat) a + S5000x133.size a ≤ S5000x133.size a
  h_S5000x133 : 0 < S5000x133.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x133_S800000x1_S800000x133_1_0_n_n_0_1_1133_wf : GatherDims.WF S50000x133 S800000x1 S800000x133 [1] [0] [] [0] [] 1 ![1, 133]
  dot_S10000x133_S133x128_S10000x128_1_0_0_1_n_n_wf : DotDims.WF S10000x133 S133x128 S10000x128 [1] [0] [0] [1] [] []
  dot_S10000x14_S14x128_S10000x128_1_0_0_1_n_n_wf : DotDims.WF S10000x14 S14x128 S10000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S10000x128_S128x128_S10000x128_1_0_0_1_n_n_wf : DotDims.WF S10000x128 S128x128 S10000x128 [1] [0] [0] [1] [] []
  dot_S5000x133_S133x128_S5000x128_1_0_0_1_n_n_wf : DotDims.WF S5000x133 S133x128 S5000x128 [1] [0] [0] [1] [] []
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x133.size a ≤ S800000x133.size a
  hwx0_0 : ∀ i : grid0.Coords, EltTy.bits .bf16 = 32 ∨ (Rect.block (s := S800000x133) S10000x133.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x14.size a ≤ S800000x14.size a
  hwx0_1 : ∀ i : grid0.Coords, EltTy.bits .bf16 = 32 ∨ (Rect.block (s := S800000x14) S10000x14.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S133x128.size a ≤ S133x128.size a
  hwx0_2 : ∀ i : grid0.Coords, EltTy.bits .bf16 = 32 ∨ (Rect.block (s := S133x128) S133x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x128.size a ≤ S14x128.size a
  hwx0_3 : ∀ i : grid0.Coords, EltTy.bits .bf16 = 32 ∨ (Rect.block (s := S14x128) S14x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S800000x128.size a
  hwx0_4 : ∀ i : grid0.Coords, EltTy.bits .bf16 = 32 ∨ (Rect.block (s := S800000x128) S10000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .bf16 = 32 ∨ (Rect.block (s := S800000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S800000x128.size a
  hwx1_1 : ∀ i : grid1.Coords, EltTy.bits .bf16 = 32 ∨ (Rect.block (s := S800000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S800000x128.size a
  hwx1_3 : ∀ i : grid1.Coords, EltTy.bits .bf16 = 32 ∨ (Rect.block (s := S800000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S800000x128.size a
  hwx2_0 : ∀ i : grid2.Coords, EltTy.bits .bf16 = 32 ∨ (Rect.block (s := S800000x128) S10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S800000x128.size a
  hwx2_1 : ∀ i : grid2.Coords, EltTy.bits .bf16 = 32 ∨ (Rect.block (s := S800000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S800000x128.size a
  hwx2_3 : ∀ i : grid2.Coords, EltTy.bits .bf16 = 32 ∨ (Rect.block (s := S800000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x133.size a ≤ S50000x133.size a
  hwx3_0 : ∀ i : grid3.Coords, EltTy.bits .f32 = 32 ∨ (Rect.block (s := S50000x133) S5000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x128.size a ≤ S133x128.size a
  hwx3_2 : ∀ i : grid3.Coords, EltTy.bits .bf16 = 32 ∨ (Rect.block (s := S133x128) S133x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S10000x133_S133x128_S10000x128_1_0_0_1_n_n : DotDims S10000x133 S133x128 S10000x128 where
  lhsContracting := [1]
  rhsContracting := [0]
  lhsNonContracting := [0]
  rhsNonContracting := [1]
  lhsBatch := []
  rhsBatch := []
  wf := dot_S10000x133_S133x128_S10000x128_1_0_0_1_n_n_wf
def dot_S10000x14_S14x128_S10000x128_1_0_0_1_n_n : DotDims S10000x14 S14x128 S10000x128 where
  lhsContracting := [1]
  rhsContracting := [0]
  lhsNonContracting := [0]
  rhsNonContracting := [1]
  lhsBatch := []
  rhsBatch := []
  wf := dot_S10000x14_S14x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x133_S133x128_S5000x128_1_0_0_1_n_n : DotDims S5000x133 S133x128 S5000x128 where
  lhsContracting := [1]
  rhsContracting := [0]
  lhsNonContracting := [0]
  rhsNonContracting := [1]
  lhsBatch := []
  rhsBatch := []
  wf := dot_S5000x133_S133x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v12) S10000x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S133x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S14x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S133x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v22) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x133 : Shape := ⟨2, ![50000, 133]⟩
abbrev S2x800000 : Shape := ⟨2, ![2, 800000]⟩
abbrev S800000 : Shape := ⟨1, ![800000]⟩
abbrev S800000x14 : Shape := ⟨2, ![800000, 14]⟩
abbrev S50000 : Shape := ⟨1, ![50000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x133 : Shape := ⟨2, ![800000, 133]⟩
abbrev S800000x147 : Shape := ⟨2, ![800000, 147]⟩
abbrev S800000x128 : Shape := ⟨2, ![800000, 128]⟩
abbrev S50000x128 : Shape := ⟨2, ![50000, 128]⟩
abbrev S50000x261 : Shape := ⟨2, ![50000, 261]⟩
abbrev S1x128 : Shape := ⟨2, ![1, 128]⟩
abbrev S512x128 : Shape := ⟨2, ![512, 128]⟩
abbrev S50000x1 : Shape := ⟨2, ![50000, 1]⟩
abbrev S512x1 : Shape := ⟨2, ![512, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S50000x133, .f32⟩
  | 1 => ⟨S2x800000, .i32⟩
  | 2 => ⟨S800000, .i32⟩
  | 3 => ⟨S800000x14, .f32⟩
  | 4 => ⟨S50000, .i32⟩
  | 5 => ⟨S147x128, .f32⟩
  | 6 => ⟨S128x128, .f32⟩
  | 7 => ⟨S261x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x133, .f32⟩
  | 24 => ⟨S800000x147, .f32⟩
  | 25 => ⟨S800000x128, .f32⟩
  | 26 => ⟨S_, .f32⟩
  | 27 => ⟨S800000x128, .f32⟩
  | 28 => ⟨S800000x128, .f32⟩
  | 29 => ⟨S1x800000, .i32⟩
  | 30 => ⟨S800000, .i32⟩
  | 31 => ⟨S_, .f32⟩
  | 32 => ⟨S50000x128, .f32⟩
  | 33 => ⟨S800000x1, .i32⟩
  | 34 => ⟨S50000x128, .f32⟩
  | 35 => ⟨S1x800000, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S800000x128, .f32⟩
  | 58 => ⟨S_, .f32⟩
  | 59 => ⟨S800000x128, .f32⟩
  | 60 => ⟨S800000x128, .f32⟩
  | 61 => ⟨S1x800000, .i32⟩
  | 62 => ⟨S800000, .i32⟩
  | 63 => ⟨S_, .f32⟩
  | 64 => ⟨S50000x128, .f32⟩
  | 65 => ⟨S800000x1, .i32⟩
  | 66 => ⟨S50000x128, .f32⟩
  | 67 => ⟨S1x800000, .i32⟩
  | 68 => ⟨S800000, .i32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S800000x128, .f32⟩
  | 90 => ⟨S_, .f32⟩
  | 91 => ⟨S800000x128, .f32⟩
  | 92 => ⟨S800000x128, .f32⟩
  | 93 => ⟨S1x800000, .i32⟩
  | 94 => ⟨S800000, .i32⟩
  | 95 => ⟨S_, .f32⟩
  | 96 => ⟨S50000x128, .f32⟩
  | 97 => ⟨S800000x1, .i32⟩
  | 98 => ⟨S50000x128, .f32⟩
  | 99 => ⟨S50000x261, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S512x128, .f32⟩
  | 109 => ⟨S50000x1, .i32⟩
  | 110 => ⟨S512x128, .f32⟩
  | 111 => ⟨S_, .f32⟩
  | 112 => ⟨S50000x1, .f32⟩
  | 113 => ⟨S_, .f32⟩
  | 114 => ⟨S512x1, .f32⟩
  | 115 => ⟨S50000x1, .i32⟩
  | 116 => ⟨S512x1, .f32⟩
  | 117 => ⟨S_, .f32⟩
  | 118 => ⟨S512x1, .f32⟩
  | 119 => ⟨S512x1, .f32⟩
  | 120 => ⟨S512x128, .f32⟩
  | 121 => ⟨S512x128, .f32⟩
  | 122 => ⟨S512x128, .f32⟩
  | 123 => ⟨S1x128, .f32⟩
  | 124 => ⟨S512x128, .f32⟩
  | 125 => ⟨S512x128, .f32⟩
  | 126 => ⟨S_, .f32⟩
  | 127 => ⟨S512x128, .f32⟩
  | _ => ⟨S50000x133, .f32⟩

abbrev hbmTy0_1 (i : Nat) : BufTy := match i % 128 with
  | 0 => ⟨S512x128, .f32⟩
  | 1 => ⟨S512x1, .f32⟩
  | 2 => ⟨S1x1, .f32⟩
  | 3 => ⟨S512x1, .f32⟩
  | 4 => ⟨S512x1, .f32⟩
  | _ => ⟨S50000x133, .f32⟩

abbrev hbmTy (i : Nat) : BufTy := match i / 128 with
  | 0 => hbmTy0_0 i
  | 1 => hbmTy0_1 i
  | _ => ⟨S50000x133, .f32⟩

abbrev bufTy : (tb : Table) → Fin (tcTables nBuf tb) → BufTy
  | .hbm, ⟨i, _⟩ => hbmTy i
  | _, _ => ⟨S50000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_cst : Ref sig .tc := ⟨.hbm, 26, rfl⟩
abbrev main_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_c_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call2_cst : Ref sig .tc := ⟨.hbm, 90, rfl⟩
abbrev main_call2_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_cst_13 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call4_cst : Ref sig .tc := ⟨.hbm, 126, rfl⟩
abbrev main_call4_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x133_S800000x14_S800000x147_d1 : Shape.Concatenates [S800000x133, S800000x14] S800000x147 1
  bcast_S_S800000x128 : S_.BroadcastsInDim S800000x128 (![] : Fin 0 → Fin S800000x128.rank)
  slices_S2x800000_S1x800000_1_0 : S2x800000.Slices ![1, 0] S1x800000
  bcast_S_S50000x128 : S_.BroadcastsInDim S50000x128 (![] : Fin 0 → Fin S50000x128.rank)
  concatenates_S50000x133_S50000x128_S50000x261_d1 : Shape.Concatenates [S50000x133, S50000x128] S50000x261 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x133_S800000x1_S800000x133_1_0_n_n_0_1_1133_wf : GatherDims.WF S50000x133 S800000x1 S800000x133 [1] [0] [] [0] [] 1 ![1, 133]
  dot_S800000x147_S147x128_S800000x128_1_0_0_1_n_n_wf : DotDims.WF S800000x147 S147x128 S800000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S800000x128_S128x128_S800000x128_1_0_0_1_n_n_wf : DotDims.WF S800000x128 S128x128 S800000x128 [1] [0] [0] [1] [] []
  dot_S50000x261_S261x128_S50000x128_1_0_0_1_n_n_wf : DotDims.WF S50000x261 S261x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S800000x147_S147x128_S800000x128_1_0_0_1_n_n : DotDims S800000x147 S147x128 S800000x128 where
  lhsContracting := [1]
  rhsContracting := [0]
  lhsNonContracting := [0]
  rhsNonContracting := [1]
  lhsBatch := []
  rhsBatch := []
  wf := dot_S800000x147_S147x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x261_S261x128_S50000x128_1_0_0_1_n_n : DotDims S50000x261 S261x128 S50000x128 where
  lhsContracting := [1]
  rhsContracting := [0]
  lhsNonContracting := [0]
  rhsNonContracting := [1]
  lhsBatch := []
  rhsBatch := []
  wf := dot_S50000x261_S261x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The idealized kernel's whole run, with every buffer @main keeps between its segments read at the last boundary.

  @main is nine segments: five stretches of host operations and, between them, four pipelined regions. The buffer
  contents at each boundary are a fold from the launch memory: a stretch applies its operations, a region replaces its
  output window's array by what its grid points wrote back and leaves every other buffer alone. The run below says that
  every weakly fair execution ends, without a fault, with every buffer that is not scoped to a region holding the last
  boundary's contents — the two results among them, and the thirteen arguments (which no segment writes).
-/
import proofs.«128167_j73443940762169_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at
    the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run, read at one reference that is not scoped to a region. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  (θ_run defs _ _).mono (fun _ h c b hb => h c _ (mem_uc b hb)) (run_all m ρ)

end Cert.KernelIdeal.Whole

end
-- ==== Proof.Stages.lean ====
/-
  The network, stage by stage, as whole-array functions.

  A directed message-passing network over a graph given by an edge list: row 0 of the index table names each edge's
  source node, row 1 its target, and a third table names each edge's reverse edge. An edge's first message is the
  rectified product of its source node's features, laid beside the edge's own features, with a weight matrix. A round of
  message passing sums the messages arriving at every node, hands each edge the sum at its source less the message of
  its reverse edge, and rectifies the first message plus the product of that difference with a second weight matrix.
  After two rounds the messages arriving at each node are summed once more, laid beside the node's features, and sent
  through a rectified affine layer; the rows of one graph are averaged (a sum over the graph's nodes divided by their
  number, at least one), and a two-layer head reads the prediction off each graph's average.

  Each stage is written once, over arbitrary arrays, in the host's operations. The reference program's value at each
  of these points is the corresponding stage of the values before it.
-/
import proofs.«128167_j73443940762169_2_alg».proof.Proof.Gen.ReferenceIdeal.Read

noncomputable section

namespace Cert.Dmpnn

open Cert.ReferenceIdeal Cert.ReferenceIdeal.Gen Idealize.ShloMosaic Idealize.ShloMosaic.TcCoe Idealize.SL.Sem
open Idealize.ShloMosaic.StableHlo

variable {F : FTy → Type} [FloatOps F]

/-- An array of the given shape and element type, as a buffer holds it. -/
abbrev Arr (F : FTy → Type) [FloatOps F] (s : Shape) (e : EltTy) : Type := (⟨s, e⟩ : BufTy).Contents (Elt F)

/-- Row 0 of the edge table: each edge's source node. -/
def srcVec (x1 : Arr F S2x800000 .i32) : Arr F S800000 .i32 :=
  shapeCast _ (extractStridedSlice S1x800000 ![0, 0] x1 slices_S2x800000_S1x800000_0_0) shapeCasts_S1x800000_S800000

/-- Row 1 of the edge table: each edge's target node. -/
def dstVec (x1 : Arr F S2x800000 .i32) : Arr F S800000 .i32 :=
  shapeCast _ (extractStridedSlice S1x800000 ![1, 0] x1 slices_S2x800000_S1x800000_1_0) shapeCasts_S1x800000_S800000

/-- A vector of node numbers as a column of gather indices, a negative entry counted from the end of the node table. -/
def nodeCol (v : Arr F S800000 .i32) : Arr F S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- A vector of edge numbers as a column of gather indices, a negative entry counted from the end of the edge table. -/
def edgeCol (v : Arr F S800000 .i32) : Arr F S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 800000#32))) v)

/-- A vector of node numbers as a column of scatter indices. -/
def scatterCol (v : Arr F S800000 .i32) : Arr F S800000x1 .i32 :=
  broadcastInDim S800000x1 ![0] bcast_S800000_S800000x1_0 v

/-- The rows of the node features at each edge's source. -/
def gatherSrc (x0 : Arr F S50000x133 .f32) (src : Arr F S800000 .i32) : Arr F S800000x133 .f32 :=
  Host.gather gather_S50000x133_S800000x1_S800000x133_1_0_n_n_0_1_1133 x0 (nodeCol src)

/-- The first message of every edge: its source's features beside its own, times the weights, rectified. -/
def edgeInit (g : Arr F S800000x133 .f32) (x3 : Arr F S800000x14 .f32) (x5 : Arr F S147x128 .f32) : Arr F S800000x128 .f32 :=
  maximumf
    (Host.dotGeneral dot_S800000x147_S147x128_S800000x128_1_0_0_1_n_n none
      (concatenate S800000x147 1 [⟨S800000x133, g⟩, ⟨S800000x14, x3⟩] concatenates_S800000x133_S800000x14_S800000x147_d1) x5)
    (broadcastInDim S800000x128 ![] bcast_S_S800000x128 (constant S_ .f32 0x00000000#32))

/-- The sum, at every node, of the messages of the edges arriving there. -/
def nodeSum (h : Arr F S800000x128 .f32) (dst : Arr F S800000 .i32) : Arr F S50000x128 .f32 :=
  Host.scatterAdd scatter_S50000x128_S800000x1_S800000x128_1_0_0_1
    (broadcastInDim S50000x128 ![] bcast_S_S50000x128 (constant S_ .f32 0x00000000#32)) (scatterCol dst) h

/-- What an edge is handed in a round: the sum at its source less the message of its reverse edge. -/
def message (h : Arr F S800000x128 .f32) (src dst rev : Arr F S800000 .i32) : Arr F S800000x128 .f32 :=
  subf (Host.gather gather_S50000x128_S800000x1_S800000x128_1_0_n_n_0_1_1128 (nodeSum h dst) (nodeCol src))
    (Host.gather gather_S800000x128_S800000x1_S800000x128_1_0_n_n_0_1_1128 h (edgeCol rev))

/-- A round's new messages: the first messages plus the handed differences times the weights, rectified. -/
def update (h0 mg : Arr F S800000x128 .f32) (x6 : Arr F S128x128 .f32) : Arr F S800000x128 .f32 :=
  maximumf (addf h0 (Host.dotGeneral dot_S800000x128_S128x128_S800000x128_1_0_0_1_n_n none mg x6))
    (broadcastInDim S800000x128 ![] bcast_S_S800000x128 (constant S_ .f32 0x00000000#32))

/-- The node layer: features beside the arriving sum, times the weights, plus the bias row, rectified. -/
def nodeUpdate (x0 : Arr F S50000x133 .f32) (v : Arr F S50000x128 .f32) (x7 : Arr F S261x128 .f32) (x8 : Arr F S128 .f32) :
    Arr F S50000x128 .f32 :=
  maximumf
    (addf
      (Host.dotGeneral dot_S50000x261_S261x128_S50000x128_1_0_0_1_n_n none
        (concatenate S50000x261 1 [⟨S50000x133, x0⟩, ⟨S50000x128, v⟩] concatenates_S50000x133_S50000x128_S50000x261_d1) x7)
      (broadcastInDim S50000x128 ![0, 1] bcast_S1x128_S50000x128_0_1 (broadcastInDim S1x128 ![1] bcast_S128_S1x128_1 x8)))
    (broadcastInDim S50000x128 ![] bcast_S_S50000x128 (constant S_ .f32 0x00000000#32))

/-- The average of each graph's node rows: their sum over the number of the graph's nodes, at least one. -/
def pool (na : Arr F S50000x128 .f32) (x4 : Arr F S50000 .i32) : Arr F S512x128 .f32 :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 x4) na)
    (broadcastInDim S512x128 ![0, 1] bcast_S512x1_S512x128_0_1
      (maximumf
        (Host.scatterAdd scatter_S512x1_S50000x1_S50000x1_1_0_0_1
          (broadcastInDim S512x1 ![] bcast_S_S512x1 (constant S_ .f32 0x00000000#32))
          (broadcastInDim S50000x1 ![0] bcast_S50000_S50000x1_0 x4)
          (broadcastInDim S50000x1 ![] bcast_S_S50000x1 (constant S_ .f32 0x3F800000#32)))
        (broadcastInDim S512x1 ![] bcast_S_S512x1 (constant S_ .f32 0x3F800000#32))))

/-- The head: a rectified affine layer, then an affine layer with one output column. -/
def head (p : Arr F S512x128 .f32) (x9 : Arr F S128x128 .f32) (x10 : Arr F S128 .f32) (x11 : Arr F S128x1 .f32)
    (x12 : Arr F S1 .f32) : Arr F S512x1 .f32 :=
  addf
    (Host.dotGeneral dot_S512x128_S128x1_S512x1_1_0_0_1_n_n none
      (maximumf
        (addf (Host.dotGeneral dot_S512x128_S128x128_S512x128_1_0_0_1_n_n none p x9)
          (broadcastInDim S512x128 ![0, 1] bcast_S1x128_S512x128_0_1 (broadcastInDim S1x128 ![1] bcast_S128_S1x128_1 x10)))
        (broadcastInDim S512x128 ![] bcast_S_S512x128 (constant S_ .f32 0x00000000#32))) x11)
    (broadcastInDim S512x1 ![0, 1] bcast_S1x1_S512x1_0_1 (broadcastInDim S1x1 ![1] bcast_S1_S1x1_1 x12))

/-- The node rows the pooling reads: two rounds of message passing from the first messages, then the node layer. -/
def nodeRows (x0 : Arr F S50000x133 .f32) (x1 : Arr F S2x800000 .i32) (x2 : Arr F S800000 .i32) (x3 : Arr F S800000x14 .f32)
    (x5 : Arr F S147x128 .f32) (x6 : Arr F S128x128 .f32) (x7 : Arr F S261x128 .f32) (x8 : Arr F S128 .f32) :
    Arr F S50000x128 .f32 :=
  let h0 := edgeInit (gatherSrc x0 (srcVec x1)) x3 x5
  let h1 := update h0 (message h0 (srcVec x1) (dstVec x1) x2) x6
  let h2 := update h0 (message h1 (srcVec x1) (dstVec x1) x2) x6
  nodeUpdate x0 (nodeSum h2 (dstVec x1)) x7 x8

/-! ## The reference program's values are these stages -/

open Cert.ReferenceIdeal.Read in
/-- The reference's pooled rows are the average of the network's node rows. -/
theorem ref_pooled (x0 : Arr F S50000x133 .f32) (x1 : Arr F S2x800000 .i32) (x2 : Arr F S800000 .i32) (x3 : Arr F S800000x14 .f32)
    (x4 : Arr F S50000 .i32) (x5 : Arr F S147x128 .f32) (x6 : Arr F S128x128 .f32) (x7 : Arr F S261x128 .f32) (x8 : Arr F S128 .f32) :
    val_main_v83 (F := F) x0 x1 x2 x3 x4 x5 x6 x7 x8 = pool (nodeRows x0 x1 x2 x3 x5 x6 x7 x8) x4 := rfl

open Cert.ReferenceIdeal.Read in
/-- The reference's prediction is the head of its pooled rows. -/
theorem ref_pred (x0 : Arr F S50000x133 .f32) (x1 : Arr F S2x800000 .i32) (x2 : Arr F S800000 .i32) (x3 : Arr F S800000x14 .f32)
    (x4 : Arr F S50000 .i32) (x5 : Arr F S147x128 .f32) (x6 : Arr F S128x128 .f32) (x7 : Arr F S261x128 .f32) (x8 : Arr F S128 .f32)
    (x9 : Arr F S128x128 .f32) (x10 : Arr F S128 .f32) (x11 : Arr F S128x1 .f32) (x12 : Arr F S1 .f32) :
    val_main_v92 (F := F) x0 x1 x2 x3 x4 x5 x6 x7 x8 x9 x10 x11 x12
      = head (pool (nodeRows x0 x1 x2 x3 x5 x6 x7 x8) x4) x9 x10 x11 x12 := rfl

end Cert.Dmpnn

end
-- ==== Proof.Boundaries.lean ====
/-
  What the idealized kernel's host stretches leave in the buffers its regions and later stretches read.

  Between two regions the host gathers, sums and subtracts rows; it also narrows every edge-indexed array to a shorter
  float format and widens it back, which on the extended reals is the identity, so each stretch's results are the
  network's stages (Proof/Stages.lean) of the arrays the stretch found. A buffer that a segment does not write is the
  same after the segment as before it: a stretch writes only its own results, a region only its output window's array.
-/
import proofs.«128167_j73443940762169_2_alg».proof.Proof.Gen.KernelIdeal.Frame
import proofs.«128167_j73443940762169_2_alg».proof.Proof.Stages

set_option maxRecDepth 16384

noncomputable section

namespace Cert.KernelIdeal.Whole

open Idealize.ShloMosaic Idealize.ShloMosaic.TcCoe Idealize.SL.Sem
open Cert.KernelIdeal Cert.KernelIdeal.Gen Cert.Dmpnn

variable (m : (ℓ : Loc nD τ sig) → Buf (Elt Ideal) ℓ) (ρ : Dev nD → PrngReg) (c : Dev nD)

/-- No operation of a literal stretch writes the reference: each operation's one result is another buffer. -/
macro "not_written" : tactic =>
  `(tactic| (refine List.forall_iff_forall_mem.mp ?_
             simp only [hostOps0, hostOps1, hostOps2, hostOps3, hostOps4, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## One segment at a time: a buffer the segment does not write -/

theorem kept1 (b : Ref sig .tc) (h : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ h
theorem kept2 (b : Ref sig .tc) (h : ∀ w, Pipeline.arrRef spec0 w ≠ b) :
    W2 m ρ c (Proc.devRef .tc b) = W1 m ρ c (Proc.devRef .tc b) := W2_of_ne m ρ c b h
theorem kept3 (b : Ref sig .tc) (h : ∀ op ∈ (hostOps1 : List (HloOp τ sig (Elt Ideal))), Proc.devRef .tc b ∉ op.writes) :
    W3 m ρ c (Proc.devRef .tc b) = W2 m ρ c (Proc.devRef .tc b) := StableHlo.after_of_forall_not_mem _ _ h
theorem kept4 (b : Ref sig .tc) (h : ∀ w, Pipeline.arrRef spec1 w ≠ b) :
    W4 m ρ c (Proc.devRef .tc b) = W3 m ρ c (Proc.devRef .tc b) := W4_of_ne m ρ c b h
theorem kept5 (b : Ref sig .tc) (h : ∀ op ∈ (hostOps2 : List (HloOp τ sig (Elt Ideal))), Proc.devRef .tc b ∉ op.writes) :
    W5 m ρ c (Proc.devRef .tc b) = W4 m ρ c (Proc.devRef .tc b) := StableHlo.after_of_forall_not_mem _ _ h
theorem kept6 (b : Ref sig .tc) (h : ∀ w, Pipeline.arrRef spec2 w ≠ b) :
    W6 m ρ c (Proc.devRef .tc b) = W5 m ρ c (Proc.devRef .tc b) := W6_of_ne m ρ c b h
theorem kept7 (b : Ref sig .tc) (h : ∀ op ∈ (hostOps3 : List (HloOp τ sig (Elt Ideal))), Proc.devRef .tc b ∉ op.writes) :
    W7 m ρ c (Proc.devRef .tc b) = W6 m ρ c (Proc.devRef .tc b) := StableHlo.after_of_forall_not_mem _ _ h
theorem kept8 (b : Ref sig .tc) (h : ∀ w, Pipeline.arrRef spec3 w ≠ b) :
    W8 m ρ c (Proc.devRef .tc b) = W7 m ρ c (Proc.devRef .tc b) := W8_of_ne m ρ c b h
theorem kept9 (b : Ref sig .tc) (h : ∀ op ∈ (hostOps4 : List (HloOp τ sig (Elt Ideal))), Proc.devRef .tc b ∉ op.writes) :
    W9 m ρ c (Proc.devRef .tc b) = W8 m ρ c (Proc.devRef .tc b) := StableHlo.after_of_forall_not_mem _ _ h

/-! ## The arguments, as launched -/

abbrev a0 : Arr Ideal Cert.ReferenceIdeal.S50000x133 .f32 := m ((c : Thread nD τ).loc main_arg0)
abbrev a1 : Arr Ideal Cert.ReferenceIdeal.S2x800000 .i32 := m ((c : Thread nD τ).loc main_arg1)
abbrev a2 : Arr Ideal Cert.ReferenceIdeal.S800000 .i32 := m ((c : Thread nD τ).loc main_arg2)
abbrev a3 : Arr Ideal Cert.ReferenceIdeal.S800000x14 .f32 := m ((c : Thread nD τ).loc main_arg3)
abbrev a4 : Arr Ideal Cert.ReferenceIdeal.S50000 .i32 := m ((c : Thread nD τ).loc main_arg4)
abbrev a5 : Arr Ideal Cert.ReferenceIdeal.S147x128 .f32 := m ((c : Thread nD τ).loc main_arg5)
abbrev a6 : Arr Ideal Cert.ReferenceIdeal.S128x128 .f32 := m ((c : Thread nD τ).loc main_arg6)
abbrev a7 : Arr Ideal Cert.ReferenceIdeal.S261x128 .f32 := m ((c : Thread nD τ).loc main_arg7)
abbrev a8 : Arr Ideal Cert.ReferenceIdeal.S128 .f32 := m ((c : Thread nD τ).loc main_arg8)
abbrev a9 : Arr Ideal Cert.ReferenceIdeal.S128x128 .f32 := m ((c : Thread nD τ).loc main_arg9)
abbrev a10 : Arr Ideal Cert.ReferenceIdeal.S128 .f32 := m ((c : Thread nD τ).loc main_arg10)
abbrev a11 : Arr Ideal Cert.ReferenceIdeal.S128x1 .f32 := m ((c : Thread nD τ).loc main_arg11)
abbrev a12 : Arr Ideal Cert.ReferenceIdeal.S1 .f32 := m ((c : Thread nD τ).loc main_arg12)

/-! ## A stretch at a time, from ANY contents of the buffers it reads

Each stretch is read over a variable valuation `V` of the buffers: what it leaves in a buffer it writes is a stage of
what `V` holds in the buffers it reads. -/

/-! ### The host's narrowing and widening of the edge-indexed arrays

On the extended reals a change of float format is the identity. The kernel's host stretches narrow an array before a
gather and widen the gathered rows again; each such piece, over arbitrary arrays, is the stage without the casts. -/

section Spelling

theorem nodeSum_spelling (u : (⟨S800000x128, .bf16⟩ : BufTy).Contents (Elt Ideal)) (dv : (⟨S800000, .i32⟩ : BufTy).Contents (Elt Ideal)) :
    (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 dv) (extf (F := Ideal) .f32 u bitsLt_bf16_f32)
        : Arr Ideal Cert.ReferenceIdeal.S50000x128 .f32)
      = nodeSum u dv := rfl

theorem gatherNode_spelling (X : (⟨S50000x128, .f32⟩ : BufTy).Contents (Elt Ideal)) (sv : (⟨S800000, .i32⟩ : BufTy).Contents (Elt Ideal)) :
    (extf (F := Ideal) .f32
        (Host.gather gather_S50000x128_S800000x1_S800000x128_1_0_n_n_0_1_1128 (truncf (F := Ideal) .bf16 X bitsLt_bf16_f32)
          (broadcastInDim S800000x1 ![0] bcast_S800000_S800000x1_0
            (select (cmpi .slt sv (broadcastInDim S800000 ![] bcast_S_S800000 (constantI S_ 32 0#32)))
              (addi sv (broadcastInDim S800000 ![] bcast_S_S800000 (constantI S_ 32 50000#32))) sv)))
        bitsLt_bf16_f32 : Arr Ideal Cert.ReferenceIdeal.S800000x128 .f32)
      = Host.gather Cert.ReferenceIdeal.gather_S50000x128_S800000x1_S800000x128_1_0_n_n_0_1_1128 X (nodeCol sv) := rfl

theorem gatherEdge_spelling (u : (⟨S800000x128, .bf16⟩ : BufTy).Contents (Elt Ideal)) (rv : (⟨S800000, .i32⟩ : BufTy).Contents (Elt Ideal)) :
    (extf (F := Ideal) .f32
        (Host.gather gather_S800000x128_S800000x1_S800000x128_1_0_n_n_0_1_1128 u
          (broadcastInDim S800000x1 ![0] bcast_S800000_S800000x1_0
            (select (cmpi .slt rv (broadcastInDim S800000 ![] bcast_S_S800000 (constantI S_ 32 0#32)))
              (addi rv (broadcastInDim S800000 ![] bcast_S_S800000 (constantI S_ 32 800000#32))) rv)))
        bitsLt_bf16_f32 : Arr Ideal Cert.ReferenceIdeal.S800000x128 .f32)
      = Host.gather Cert.ReferenceIdeal.gather_S800000x128_S800000x1_S800000x128_1_0_n_n_0_1_1128
          (u : Arr Ideal Cert.ReferenceIdeal.S800000x128 .f32) (edgeCol rv) := rfl

theorem narrowed_difference (A B : (⟨S800000x128, .f32⟩ : BufTy).Contents (Elt Ideal)) :
    (truncf (F := Ideal) .bf16 (subf (F := Ideal) (φ := .f32) A B) bitsLt_bf16_f32 : Arr Ideal Cert.ReferenceIdeal.S800000x128 .f32)
      = subf (F := Ideal) (φ := .f32) A B := rfl

/-- The kernel's spelling of a round's handed differences is the stage. -/
theorem message_spelling (u : (⟨S800000x128, .bf16⟩ : BufTy).Contents (Elt Ideal))
    (sv dv rv : (⟨S800000, .i32⟩ : BufTy).Contents (Elt Ideal)) :
    (truncf (F := Ideal) .bf16
      (subf (F := Ideal) (φ := .f32)
        (extf (F := Ideal) .f32
          (Host.gather gather_S50000x128_S800000x1_S800000x128_1_0_n_n_0_1_1128
            (truncf (F := Ideal) .bf16
              (Host.scatterAdd (F := Ideal) scatter_S50000x128_S800000x1_S800000x128_1_0_0_1
                (broadcastInDim S50000x128 ![] bcast_S_S50000x128 (constant (F := Ideal) S_ .f32 0x00000000#32))
                (broadcastInDim S800000x1 ![0] bcast_S800000_S800000x1_0 dv) (extf (F := Ideal) .f32 u bitsLt_bf16_f32))
              bitsLt_bf16_f32)
            (broadcastInDim S800000x1 ![0] bcast_S800000_S800000x1_0
              (select (cmpi .slt sv (broadcastInDim S800000 ![] bcast_S_S800000 (constantI S_ 32 0#32)))
                (addi sv (broadcastInDim S800000 ![] bcast_S_S800000 (constantI S_ 32 50000#32))) sv)))
          bitsLt_bf16_f32)
        (extf (F := Ideal) .f32
          (Host.gather gather_S800000x128_S800000x1_S800000x128_1_0_n_n_0_1_1128 u
            (broadcastInDim S800000x1 ![0] bcast_S800000_S800000x1_0
              (select (cmpi .slt rv (broadcastInDim S800000 ![] bcast_S_S800000 (constantI S_ 32 0#32)))
                (addi rv (broadcastInDim S800000 ![] bcast_S_S800000 (constantI S_ 32 800000#32))) rv)))
          bitsLt_bf16_f32))
      bitsLt_bf16_f32 : Arr Ideal Cert.ReferenceIdeal.S800000x128 .f32)
    = message u sv dv rv :=
  (narrowed_difference _ _).trans
    (congrArg₂ (subf (F := Ideal) (φ := .f32) (s := S800000x128))
      ((gatherNode_spelling _ sv).trans
        (congrArg (fun X => Host.gather Cert.ReferenceIdeal.gather_S50000x128_S800000x1_S800000x128_1_0_n_n_0_1_1128 X (nodeCol sv))
          (nodeSum_spelling u dv)))
      (gatherEdge_spelling u rv))

end Spelling

section Stretches

variable (V : Valuation τ sig (Elt Ideal))

theorem stretch0_src : (StableHlo.after hostOps0 V (Proc.devRef .tc main_v1) : Arr Ideal Cert.ReferenceIdeal.S800000 .i32)
    = srcVec (V (Proc.devRef .tc main_arg1)) := by
  after_results
  rfl

theorem stretch0_dst : (StableHlo.after hostOps0 V (Proc.devRef .tc main_v3) : Arr Ideal Cert.ReferenceIdeal.S800000 .i32)
    = dstVec (V (Proc.devRef .tc main_arg1)) := by
  after_results
  rfl

theorem stretch0_gathered : (StableHlo.after hostOps0 V (Proc.devRef .tc main_v12) : Arr Ideal Cert.ReferenceIdeal.S800000x133 .f32)
    = gatherSrc (V (Proc.devRef .tc main_arg0)) (srcVec (V (Proc.devRef .tc main_arg1))) := by
  after_results
  rfl

theorem stretch0_edgeFeatures : (StableHlo.after hostOps0 V (Proc.devRef .tc main_v5) : Arr Ideal Cert.ReferenceIdeal.S800000x14 .f32)
    = V (Proc.devRef .tc main_arg3) := by
  after_results
  rfl

theorem stretch0_w1x : (StableHlo.after hostOps0 V (Proc.devRef .tc main_v14) : Arr Ideal S133x128 .f32)
    = extractStridedSlice S133x128 ![0, 0] (V (Proc.devRef .tc main_arg5)) slices_S147x128_S133x128_0_0 := by
  after_results
  rfl

theorem stretch0_w1e : (StableHlo.after hostOps0 V (Proc.devRef .tc main_v16) : Arr Ideal S14x128 .f32)
    = extractStridedSlice S14x128 ![133, 0] (V (Proc.devRef .tc main_arg5)) slices_S147x128_S14x128_133_0 := by
  after_results
  rfl

theorem stretch0_w2 : (StableHlo.after hostOps0 V (Proc.devRef .tc main_v17) : Arr Ideal Cert.ReferenceIdeal.S128x128 .f32)
    = V (Proc.devRef .tc main_arg6) := by
  after_results
  rfl

theorem stretch0_w3x : (StableHlo.after hostOps0 V (Proc.devRef .tc main_v19) : Arr Ideal S133x128 .f32)
    = extractStridedSlice S133x128 ![0, 0] (V (Proc.devRef .tc main_arg7)) slices_S261x128_S133x128_0_0 := by
  after_results
  rfl

theorem stretch0_w3v : (StableHlo.after hostOps0 V (Proc.devRef .tc main_v21) : Arr Ideal S128x128 .f32)
    = extractStridedSlice S128x128 ![133, 0] (V (Proc.devRef .tc main_arg7)) slices_S261x128_S128x128_133_0 := by
  after_results
  rfl

theorem stretch0_biasRow : (StableHlo.after hostOps0 V (Proc.devRef .tc main_v22) : Arr Ideal S1x128 .f32)
    = shapeCast S1x128 (V (Proc.devRef .tc main_arg8)) shapeCasts_S128_S1x128 := by
  after_results
  rfl

set_option maxHeartbeats 4000000 in
/-- The second stretch: the differences handed to the edges in the first round. -/
theorem stretch1_message : (StableHlo.after hostOps1 V (Proc.devRef .tc main_v46) : Arr Ideal Cert.ReferenceIdeal.S800000x128 .f32)
    = message (V (Proc.devRef .tc main_v23)) (V (Proc.devRef .tc main_v1)) (V (Proc.devRef .tc main_v3))
        (V (Proc.devRef .tc main_arg2)) := by
  after_results_simp
  exact message_spelling _ _ _ _

set_option maxHeartbeats 4000000 in
/-- The third stretch: the differences handed to the edges in the second round. -/
theorem stretch2_message : (StableHlo.after hostOps2 V (Proc.devRef .tc main_v70) : Arr Ideal Cert.ReferenceIdeal.S800000x128 .f32)
    = message (V (Proc.devRef .tc main_v47)) (V (Proc.devRef .tc main_v1)) (V (Proc.devRef .tc main_v3))
        (V (Proc.devRef .tc main_arg2)) := by
  after_results_simp
  exact message_spelling _ _ _ _

/-- The fourth stretch: the last messages summed at the nodes. -/
theorem stretch3_sum : (StableHlo.after hostOps3 V (Proc.devRef .tc main_v75) : Arr Ideal Cert.ReferenceIdeal.S50000x128 .f32)
    = nodeSum (V (Proc.devRef .tc main_v71)) (V (Proc.devRef .tc main_v3)) := by
  after_results
  rfl

/-- The last stretch: the pooled rows. -/
theorem stretch4_pooled : (StableHlo.after hostOps4 V (Proc.devRef .tc main_v87) : Arr Ideal Cert.ReferenceIdeal.S512x128 .f32)
    = pool (V (Proc.devRef .tc main_v76)) (V (Proc.devRef .tc main_arg4)) := by
  after_results
  rfl

set_option maxHeartbeats 4000000 in
/-- The last stretch: the prediction. -/
theorem stretch4_pred : (StableHlo.after hostOps4 V (Proc.devRef .tc main_v97) : Arr Ideal Cert.ReferenceIdeal.S512x1 .f32)
    = head (pool (V (Proc.devRef .tc main_v76)) (V (Proc.devRef .tc main_arg4)))
        (V (Proc.devRef .tc main_arg9)) (V (Proc.devRef .tc main_arg10))
        (V (Proc.devRef .tc main_arg11)) (V (Proc.devRef .tc main_arg12)) := by
  after_results_simp
  rfl

end Stretches

/-! ## The same at the program's boundaries -/

theorem first_src : (W1 m ρ c (Proc.devRef .tc main_v1) : Arr Ideal Cert.ReferenceIdeal.S800000 .i32) = srcVec (a1 m c) :=
  stretch0_src (W0 m ρ c)
theorem first_dst : (W1 m ρ c (Proc.devRef .tc main_v3) : Arr Ideal Cert.ReferenceIdeal.S800000 .i32) = dstVec (a1 m c) :=
  stretch0_dst (W0 m ρ c)
theorem first_gathered : (W1 m ρ c (Proc.devRef .tc main_v12) : Arr Ideal Cert.ReferenceIdeal.S800000x133 .f32)
    = gatherSrc (a0 m c) (srcVec (a1 m c)) := stretch0_gathered (W0 m ρ c)
theorem first_edgeFeatures : (W1 m ρ c (Proc.devRef .tc main_v5) : Arr Ideal Cert.ReferenceIdeal.S800000x14 .f32) = a3 m c :=
  stretch0_edgeFeatures (W0 m ρ c)
theorem first_w1x : (W1 m ρ c (Proc.devRef .tc main_v14) : Arr Ideal S133x128 .f32)
    = extractStridedSlice S133x128 ![0, 0] (a5 m c) slices_S147x128_S133x128_0_0 := stretch0_w1x (W0 m ρ c)
theorem first_w1e : (W1 m ρ c (Proc.devRef .tc main_v16) : Arr Ideal S14x128 .f32)
    = extractStridedSlice S14x128 ![133, 0] (a5 m c) slices_S147x128_S14x128_133_0 := stretch0_w1e (W0 m ρ c)
theorem first_w2 : (W1 m ρ c (Proc.devRef .tc main_v17) : Arr Ideal Cert.ReferenceIdeal.S128x128 .f32) = a6 m c :=
  stretch0_w2 (W0 m ρ c)
theorem first_w3x : (W1 m ρ c (Proc.devRef .tc main_v19) : Arr Ideal S133x128 .f32)
    = extractStridedSlice S133x128 ![0, 0] (a7 m c) slices_S261x128_S133x128_0_0 := stretch0_w3x (W0 m ρ c)
theorem first_w3v : (W1 m ρ c (Proc.devRef .tc main_v21) : Arr Ideal S128x128 .f32)
    = extractStridedSlice S128x128 ![133, 0] (a7 m c) slices_S261x128_S128x128_133_0 := stretch0_w3v (W0 m ρ c)
theorem first_biasRow : (W1 m ρ c (Proc.devRef .tc main_v22) : Arr Ideal S1x128 .f32)
    = shapeCast S1x128 (a8 m c) shapeCasts_S128_S1x128 := stretch0_biasRow (W0 m ρ c)

theorem round1_message : (W3 m ρ c (Proc.devRef .tc main_v46) : Arr Ideal Cert.ReferenceIdeal.S800000x128 .f32)
    = message (W2 m ρ c (Proc.devRef .tc main_v23)) (W2 m ρ c (Proc.devRef .tc main_v1)) (W2 m ρ c (Proc.devRef .tc main_v3))
        (W2 m ρ c (Proc.devRef .tc main_arg2)) := stretch1_message (W2 m ρ c)

theorem round2_message : (W5 m ρ c (Proc.devRef .tc main_v70) : Arr Ideal Cert.ReferenceIdeal.S800000x128 .f32)
    = message (W4 m ρ c (Proc.devRef .tc main_v47)) (W4 m ρ c (Proc.devRef .tc main_v1)) (W4 m ρ c (Proc.devRef .tc main_v3))
        (W4 m ρ c (Proc.devRef .tc main_arg2)) := stretch2_message (W4 m ρ c)

theorem arriving_sum : (W7 m ρ c (Proc.devRef .tc main_v75) : Arr Ideal Cert.ReferenceIdeal.S50000x128 .f32)
    = nodeSum (W6 m ρ c (Proc.devRef .tc main_v71)) (W6 m ρ c (Proc.devRef .tc main_v3)) := stretch3_sum (W6 m ρ c)

theorem last_pooled : (W9 m ρ c (Proc.devRef .tc main_v87) : Arr Ideal Cert.ReferenceIdeal.S512x128 .f32)
    = pool (W8 m ρ c (Proc.devRef .tc main_v76)) (W8 m ρ c (Proc.devRef .tc main_arg4)) := stretch4_pooled (W8 m ρ c)

theorem last_pred : (W9 m ρ c (Proc.devRef .tc main_v97) : Arr Ideal Cert.ReferenceIdeal.S512x1 .f32)
    = head (pool (W8 m ρ c (Proc.devRef .tc main_v76)) (W8 m ρ c (Proc.devRef .tc main_arg4)))
        (W8 m ρ c (Proc.devRef .tc main_arg9)) (W8 m ρ c (Proc.devRef .tc main_arg10))
        (W8 m ρ c (Proc.devRef .tc main_arg11)) (W8 m ρ c (Proc.devRef .tc main_arg12)) := stretch4_pred (W8 m ρ c)

/-! ## Buffers carried across segments that do not write them -/

theorem src_at2 : (W2 m ρ c (Proc.devRef .tc main_v1) : Arr Ideal Cert.ReferenceIdeal.S800000 .i32) = srcVec (a1 m c) :=
  (kept2 m ρ c main_v1 (by decide)).trans (first_src m ρ c)
theorem dst_at2 : (W2 m ρ c (Proc.devRef .tc main_v3) : Arr Ideal Cert.ReferenceIdeal.S800000 .i32) = dstVec (a1 m c) :=
  (kept2 m ρ c main_v3 (by decide)).trans (first_dst m ρ c)
theorem rev_at2 : (W2 m ρ c (Proc.devRef .tc main_arg2) : Arr Ideal Cert.ReferenceIdeal.S800000 .i32) = a2 m c :=
  (kept2 m ρ c main_arg2 (by decide)).trans (kept1 m ρ c main_arg2 (by not_written))

theorem src_at4 : (W4 m ρ c (Proc.devRef .tc main_v1) : Arr Ideal Cert.ReferenceIdeal.S800000 .i32) = srcVec (a1 m c) :=
  (kept4 m ρ c main_v1 (by decide)).trans ((kept3 m ρ c main_v1 (by not_written)).trans (src_at2 m ρ c))
theorem dst_at4 : (W4 m ρ c (Proc.devRef .tc main_v3) : Arr Ideal Cert.ReferenceIdeal.S800000 .i32) = dstVec (a1 m c) :=
  (kept4 m ρ c main_v3 (by decide)).trans ((kept3 m ρ c main_v3 (by not_written)).trans (dst_at2 m ρ c))
theorem rev_at4 : (W4 m ρ c (Proc.devRef .tc main_arg2) : Arr Ideal Cert.ReferenceIdeal.S800000 .i32) = a2 m c :=
  (kept4 m ρ c main_arg2 (by decide)).trans ((kept3 m ρ c main_arg2 (by not_written)).trans (rev_at2 m ρ c))

theorem dst_at6 : (W6 m ρ c (Proc.devRef .tc main_v3) : Arr Ideal Cert.ReferenceIdeal.S800000 .i32) = dstVec (a1 m c) :=
  (kept6 m ρ c main_v3 (by decide)).trans ((kept5 m ρ c main_v3 (by not_written)).trans (dst_at4 m ρ c))

/-- The first messages, as the first region left them, are what the second and the third region stage. -/
theorem first_at3 : W3 m ρ c (Proc.devRef .tc main_v23) = W2 m ρ c (Proc.devRef .tc main_v23) :=
  kept3 m ρ c main_v23 (by not_written)
/-- The second region stages the first messages as an input window: a window that is only read is never written back. -/
theorem first_at4 : W4 m ρ c (Proc.devRef .tc main_v23) = W3 m ρ c (Proc.devRef .tc main_v23) :=
  (W4_arr m ρ c 0).trans (((dat1 (V3 m ρ) c).arrAt_in 0 rfl _).trans (A_eq1 (V3 m ρ) c 0))
theorem first_at5 : W5 m ρ c (Proc.devRef .tc main_v23) = W2 m ρ c (Proc.devRef .tc main_v23) :=
  (kept5 m ρ c main_v23 (by not_written)).trans ((first_at4 m ρ c).trans (first_at3 m ρ c))

theorem w2_at3 : (W3 m ρ c (Proc.devRef .tc main_v17) : Arr Ideal Cert.ReferenceIdeal.S128x128 .f32) = a6 m c :=
  (kept3 m ρ c main_v17 (by not_written)).trans ((kept2 m ρ c main_v17 (by decide)).trans (first_w2 m ρ c))
theorem w2_at4 : W4 m ρ c (Proc.devRef .tc main_v17) = W3 m ρ c (Proc.devRef .tc main_v17) :=
  (W4_arr m ρ c 2).trans (((dat1 (V3 m ρ) c).arrAt_in 2 rfl _).trans (A_eq1 (V3 m ρ) c 2))
theorem w2_at5 : (W5 m ρ c (Proc.devRef .tc main_v17) : Arr Ideal Cert.ReferenceIdeal.S128x128 .f32) = a6 m c :=
  (kept5 m ρ c main_v17 (by not_written)).trans ((w2_at4 m ρ c).trans (w2_at3 m ρ c))

/-- A buffer the first stretch leaves and nothing before the last region writes, at that region's entry. -/
theorem at7_of_first (b : Ref sig .tc)
    (h7 : ∀ op ∈ (hostOps3 : List (HloOp τ sig (Elt Ideal))), Proc.devRef .tc b ∉ op.writes) (h6 : ∀ w, Pipeline.arrRef spec2 w ≠ b)
    (h5 : ∀ op ∈ (hostOps2 : List (HloOp τ sig (Elt Ideal))), Proc.devRef .tc b ∉ op.writes) (h4 : ∀ w, Pipeline.arrRef spec1 w ≠ b)
    (h3 : ∀ op ∈ (hostOps1 : List (HloOp τ sig (Elt Ideal))), Proc.devRef .tc b ∉ op.writes) (h2 : ∀ w, Pipeline.arrRef spec0 w ≠ b) :
    W7 m ρ c (Proc.devRef .tc b) = W1 m ρ c (Proc.devRef .tc b) :=
  (kept7 m ρ c b h7).trans ((kept6 m ρ c b h6).trans ((kept5 m ρ c b h5).trans ((kept4 m ρ c b h4).trans
    ((kept3 m ρ c b h3).trans (kept2 m ρ c b h2)))))

theorem features_at7 : (W7 m ρ c (Proc.devRef .tc main_arg0) : Arr Ideal Cert.ReferenceIdeal.S50000x133 .f32) = a0 m c :=
  (at7_of_first m ρ c main_arg0 (by not_written) (by decide) (by not_written) (by decide) (by not_written) (by decide)).trans
    (kept1 m ρ c main_arg0 (by not_written))
theorem w3x_at7 : (W7 m ρ c (Proc.devRef .tc main_v19) : Arr Ideal S133x128 .f32)
    = extractStridedSlice S133x128 ![0, 0] (a7 m c) slices_S261x128_S133x128_0_0 :=
  (at7_of_first m ρ c main_v19 (by not_written) (by decide) (by not_written) (by decide) (by not_written) (by decide)).trans
    (first_w3x m ρ c)
theorem w3v_at7 : (W7 m ρ c (Proc.devRef .tc main_v21) : Arr Ideal S128x128 .f32)
    = extractStridedSlice S128x128 ![133, 0] (a7 m c) slices_S261x128_S128x128_133_0 :=
  (at7_of_first m ρ c main_v21 (by not_written) (by decide) (by not_written) (by decide) (by not_written) (by decide)).trans
    (first_w3v m ρ c)
theorem biasRow_at7 : (W7 m ρ c (Proc.devRef .tc main_v22) : Arr Ideal S1x128 .f32)
    = shapeCast S1x128 (a8 m c) shapeCasts_S128_S1x128 :=
  (at7_of_first m ρ c main_v22 (by not_written) (by decide) (by not_written) (by decide) (by not_written) (by decide)).trans
    (first_biasRow m ρ c)

/-- The arguments the last stretch reads are as launched: the last boundary has them so, and the stretch writes none. -/
theorem batch_at8 : (W8 m ρ c (Proc.devRef .tc main_arg4) : Arr Ideal Cert.ReferenceIdeal.S50000 .i32) = a4 m c :=
  (kept9 m ρ c main_arg4 (by not_written)).symm.trans (W9_main_arg4 m ρ c)
theorem m1w_at8 : (W8 m ρ c (Proc.devRef .tc main_arg9) : Arr Ideal Cert.ReferenceIdeal.S128x128 .f32) = a9 m c :=
  (kept9 m ρ c main_arg9 (by not_written)).symm.trans (W9_main_arg9 m ρ c)
theorem m1b_at8 : (W8 m ρ c (Proc.devRef .tc main_arg10) : Arr Ideal Cert.ReferenceIdeal.S128 .f32) = a10 m c :=
  (kept9 m ρ c main_arg10 (by not_written)).symm.trans (W9_main_arg10 m ρ c)
theorem m2w_at8 : (W8 m ρ c (Proc.devRef .tc main_arg11) : Arr Ideal Cert.ReferenceIdeal.S128x1 .f32) = a11 m c :=
  (kept9 m ρ c main_arg11 (by not_written)).symm.trans (W9_main_arg11 m ρ c)
theorem m2b_at8 : (W8 m ρ c (Proc.devRef .tc main_arg12) : Arr Ideal Cert.ReferenceIdeal.S1 .f32) = a12 m c :=
  (kept9 m ρ c main_arg12 (by not_written)).symm.trans (W9_main_arg12 m ρ c)

end Cert.KernelIdeal.Whole

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«128167_j73443940762169_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibLayerNorm.lean ====
/-
  Row normalisation on the extended reals, over rank-2 arrays of any extents.

  For an array `X` of `M` rows and a positive count `cnt`, `rowMean X cnt p` is the sum of row `p` divided by `cnt` and
  `rowVar X cnt p` the sum of the squared deviations of row `p` from that mean, divided by `cnt`.  The normalised array
  is written in two ways: `lnK` multiplies the deviation by the reciprocal square root of `rowVar + eps`, `lnH` divides
  it by the square root.  A square is never negative on the extended reals (the square of an infinity is `+∞`), so
  `rowVar` is nonnegative whatever the entries are, `rowVar + eps` is positive for a positive `eps`, and there the
  quotient by a square root IS the product with the reciprocal square root (at `+∞` both are the product with `0`):
  `lnK = lnH` with no finiteness assumption.  `scaleShift Y g b` multiplies every row by the one-row array `g` and adds
  the one-row array `b`.  The vector unit's and the host's spellings of each step are read as these functions, and every
  one of them at an index depends on one row of `X` only.
-/
import proofs.«128167_j73443940762169_2_alg».proof.Proof.LibDense
import proofs.«128167_j73443940762169_2_alg».proof.Proof.LibRowBlocks
import proofs.«128167_j73443940762169_2_alg».proof.Proof.LibHostLayout

noncomputable section

open scoped BigOperators

namespace Cert.LayerNorm

open Idealize.ShloMosaic Idealize.ShloMosaic.ValueIdx Cert.Dense

/-! ## The functions -/

/-- The mean of row `p`: its sum over the count. -/
def rowMean {M N : ℕ} (X : Mat M N) (cnt : EReal) (p : Fin M) : EReal := Ideal.div (∑ k : Fin N, X (ix2 p k)) cnt

/-- The deviation from the row's mean. -/
def centered {M N : ℕ} (X : Mat M N) (cnt : EReal) : Mat M N := fun i => X i - rowMean X cnt (c0 i)

/-- The sum of the squared deviations of row `p`. -/
def sqSum {M N : ℕ} (X : Mat M N) (cnt : EReal) (p : Fin M) : EReal :=
  ∑ k : Fin N, centered X cnt (ix2 p k) * centered X cnt (ix2 p k)

/-- The variance of row `p`. -/
def rowVar {M N : ℕ} (X : Mat M N) (cnt : EReal) (p : Fin M) : EReal := Ideal.div (sqSum X cnt p) cnt

/-- The row means as a column. -/
def meanCol {M N : ℕ} (X : Mat M N) (cnt : EReal) : Mat M 1 := fun i => rowMean X cnt (c0 i)
/-- The squared-deviation sums as a vector. -/
def sqSumVec {M N : ℕ} (X : Mat M N) (cnt : EReal) : Row M := fun i => sqSum X cnt ⟨(i 0).val, (i 0).isLt⟩
/-- The row variances as a column. -/
def varCol {M N : ℕ} (X : Mat M N) (cnt : EReal) : Mat M 1 := fun i => rowVar X cnt (c0 i)

/-- Normalised rows, the deviation TIMES the reciprocal square root. -/
def lnK {M N : ℕ} (X : Mat M N) (cnt eps : EReal) : Mat M N :=
  fun i => centered X cnt i * Ideal.rsqrt (rowVar X cnt (c0 i) + eps)

/-- Normalised rows, the deviation OVER the square root. -/
def lnH {M N : ℕ} (X : Mat M N) (cnt eps : EReal) : Mat M N :=
  fun i => Ideal.div (centered X cnt i) (Ideal.sqrt (rowVar X cnt (c0 i) + eps))

/-- Every row times a one-row array, plus a one-row array. -/
def scaleShift {M N : ℕ} (Y : Mat M N) (g b : Mat 1 N) : Mat M N :=
  fun i => Y i * g (ix2 (0 : Fin 1) (c1 i)) + b (ix2 (0 : Fin 1) (c1 i))

/-! ## The quotient by a square root is the product with the reciprocal square root, above zero -/

theorem div_sqrt_eq_mul_rsqrt (a v : EReal) (hv : 0 < v) : Ideal.div a (Ideal.sqrt v) = a * Ideal.rsqrt v := by
  induction v using EReal.rec with
  | bot => exact absurd hv (by simp)
  | top =>
    show Ideal.div a ⊤ = a * 0
    unfold Ideal.div
    rw [if_neg (by simp), EReal.inv_top]
  | coe r =>
    have hr : 0 < r := by exact_mod_cast hv
    have hs : Real.sqrt r ≠ 0 := (Real.sqrt_pos.mpr hr).ne'
    show Ideal.div a (if r < 0 then (⊥ : EReal) else ((Real.sqrt r : ℝ) : EReal))
      = a * (if r < 0 then (⊥ : EReal) else if r = 0 then (⊤ : EReal) else (((Real.sqrt r)⁻¹ : ℝ) : EReal))
    rw [if_neg (not_lt.mpr hr.le), if_neg (not_lt.mpr hr.le), if_neg hr.ne']
    unfold Ideal.div
    rw [if_neg (by exact_mod_cast hs), EReal.coe_inv]

theorem mul_self_nonneg' (d : EReal) : 0 ≤ d * d := by
  induction d using EReal.rec with
  | bot => simp
  | top => simp
  | coe r => exact_mod_cast mul_self_nonneg r

theorem sqSum_nonneg {M N : ℕ} (X : Mat M N) (cnt : EReal) (p : Fin M) : 0 ≤ sqSum X cnt p :=
  Finset.sum_nonneg fun _ _ => mul_self_nonneg' _

theorem rowVar_nonneg {M N : ℕ} (X : Mat M N) {r : ℝ} (hr : 0 < r) (p : Fin M) : 0 ≤ rowVar X (r : EReal) p := by
  unfold rowVar
  rw [Ideal.div_coe hr.ne']
  exact mul_nonneg (sqSum_nonneg X _ p) (by exact_mod_cast (one_div_pos.mpr hr).le)

/-- The two spellings of the normalisation agree: no finiteness of the entries is needed. -/
theorem lnK_eq_lnH {M N : ℕ} (X : Mat M N) {r : ℝ} (hr : 0 < r) {eps : EReal} (heps : 0 < eps) :
    lnK X (r : EReal) eps = lnH X (r : EReal) eps := by
  funext i
  exact (div_sqrt_eq_mul_rsqrt _ _ (lt_of_lt_of_le heps (le_add_of_nonneg_left (rowVar_nonneg X hr _)))).symm

/-! ## At an index: one row of the array decides -/

theorem rowMean_congr {M M' N : ℕ} (X : Mat M N) (X' : Mat M' N) (cnt : EReal) (p : Fin M) (p' : Fin M')
    (h : ∀ k, X' (ix2 p' k) = X (ix2 p k)) : rowMean X' cnt p' = rowMean X cnt p := by
  unfold rowMean; simp only [h]

theorem centered_congr {M M' N : ℕ} (X : Mat M N) (X' : Mat M' N) (cnt : EReal) (p : Fin M) (p' : Fin M')
    (h : ∀ k, X' (ix2 p' k) = X (ix2 p k)) (q : Fin N) : centered X' cnt (ix2 p' q) = centered X cnt (ix2 p q) := by
  show X' (ix2 p' q) - rowMean X' cnt p' = X (ix2 p q) - rowMean X cnt p
  rw [h q, rowMean_congr X X' cnt p p' h]

theorem rowVar_congr {M M' N : ℕ} (X : Mat M N) (X' : Mat M' N) (cnt : EReal) (p : Fin M) (p' : Fin M')
    (h : ∀ k, X' (ix2 p' k) = X (ix2 p k)) : rowVar X' cnt p' = rowVar X cnt p := by
  unfold rowVar sqSum; simp only [centered_congr X X' cnt p p' h]

theorem lnH_congr {M M' N : ℕ} (X : Mat M N) (X' : Mat M' N) (cnt eps : EReal) (p : Fin M) (p' : Fin M')
    (h : ∀ k, X' (ix2 p' k) = X (ix2 p k)) (q : Fin N) : lnH X' cnt eps (ix2 p' q) = lnH X cnt eps (ix2 p q) := by
  show Ideal.div (centered X' cnt (ix2 p' q)) (Ideal.sqrt (rowVar X' cnt p' + eps))
    = Ideal.div (centered X cnt (ix2 p q)) (Ideal.sqrt (rowVar X cnt p + eps))
  rw [centered_congr X X' cnt p p' h, rowVar_congr X X' cnt p p' h]

theorem scaleShift_apply {M N : ℕ} (Y : Mat M N) (g b : Mat 1 N) (p : Fin M) (q : Fin N) :
    scaleShift Y g b (ix2 p q) = Y (ix2 p q) * g (ix2 (0 : Fin 1) q) + b (ix2 (0 : Fin 1) q) := rfl

/-! ## The vector unit's spelling -/

section Vec

variable {M N : ℕ} (X : FVec Ideal ⟨2, ![M, N]⟩ .f32) (cw ew : BitVec 32)
  (hr : (⟨2, ![M, N]⟩ : Shape).Reduces [1] ⟨1, ![M]⟩) (hφ : FKind.Formats .f32)
  (hacc : (0x00000000#32 : BitVec 32) = 0x00000000#32)
  (hc : (⟨1, ![M]⟩ : Shape).ShapeCasts ⟨2, ![M, 1]⟩) (hb : (⟨2, ![M, 1]⟩ : Shape).Broadcasts ⟨2, ![M, N]⟩)

/-- The row sums cast to a column and divided by the count splat: the column of means. -/
theorem vecMeanCol :
    divf (shapeCast ⟨2, ![M, 1]⟩ (multiReduction .add [1] ⟨1, ![M]⟩ X 0x00000000#32 hr hφ hacc) hc)
        (broadcast ⟨2, ![M, 1]⟩ (Scalar.ofBits (F := Ideal) .f32 cw))
      = meanCol X (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (multiReduction .add [1] ⟨1, ![M]⟩ X 0x00000000#32 hr hφ hacc) hc (ix2 p u))
      (Ideal.ofBits .f32 cw) = rowMean X (Ideal.ofBits .f32 cw) p
  rw [Cert.RowBlocks.shapeCast_col_apply, Cert.RowBlocks.rowSum_apply]
  rfl

/-- The array less the column of means broadcast along the rows: the deviations. -/
theorem vecCentered (cnt : EReal) :
    subf (F := Ideal) (φ := .f32) X (broadcastTo ⟨2, ![M, N]⟩ (meanCol X cnt) hb) = centered X cnt := by
  funext i
  obtain ⟨p, q, rfl⟩ : ∃ (p : Fin M) (q : Fin N), i = ix2 p q := ⟨i 0, i 1, eq_ix2 i⟩
  show X (ix2 p q) - broadcastTo ⟨2, ![M, N]⟩ (meanCol X cnt) hb (ix2 p q) = _
  rw [Cert.RowBlocks.broadcastTo_col_apply]
  rfl

/-- The row sums of the squared deviations. -/
theorem vecSqSum (cnt : EReal) :
    multiReduction (F := Ideal) (φ := .f32) .add [1] ⟨1, ![M]⟩
        (mulf (F := Ideal) (φ := .f32) (centered X cnt) (centered X cnt)) 0x00000000#32 hr hφ hacc
      = sqSumVec X cnt := by
  funext i
  obtain ⟨p, rfl⟩ : ∃ p : Fin M, i = ix1 p := ⟨i 0, eq_ix1 i⟩
  exact Cert.RowBlocks.rowSum_apply (mulf (F := Ideal) (φ := .f32) (centered X cnt) (centered X cnt)) hr hφ hacc p

/-- Those sums cast to a column and divided by the count splat: the column of variances. -/
theorem vecVarCol (cnt : EReal) :
    divf (F := Ideal) (φ := .f32) (shapeCast ⟨2, ![M, 1]⟩ (sqSumVec X cnt) hc) (broadcast ⟨2, ![M, 1]⟩ (Scalar.ofBits (F := Ideal) .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (sqSumVec X cnt) hc (ix2 p u)) (Ideal.ofBits .f32 cw) = _
  rw [Cert.RowBlocks.shapeCast_col_apply]
  rfl

/-- The deviations times the broadcast reciprocal square root of the variance column plus the epsilon splat. -/
theorem vecLnK :
    mulf (F := Ideal) (φ := .f32) (centered X (Ideal.ofBits .f32 cw))
        (broadcastTo ⟨2, ![M, N]⟩
          (rsqrt (F := Ideal) (φ := .f32) (addf (F := Ideal) (φ := .f32)
            (fun i => Ideal.div (sqSum X (Ideal.ofBits .f32 cw) (c0 i)) (Ideal.ofBits .f32 cw))
            (broadcast ⟨2, ![M, 1]⟩ (Scalar.ofBits (F := Ideal) .f32 ew)))) hb)
      = lnK X (Ideal.ofBits .f32 cw) (Ideal.ofBits .f32 ew) := by
  funext i
  obtain ⟨p, q, rfl⟩ : ∃ (p : Fin M) (q : Fin N), i = ix2 p q := ⟨i 0, i 1, eq_ix2 i⟩
  show centered X (Ideal.ofBits .f32 cw) (ix2 p q) * broadcastTo ⟨2, ![M, N]⟩ _ hb (ix2 p q) = _
  rw [Cert.RowBlocks.broadcastTo_col_apply]
  rfl

/-- Every row times the broadcast row `g`, plus the broadcast row `b`. -/
theorem vecScaleShift (Y : FVec Ideal ⟨2, ![M, N]⟩ .f32) (g b : FVec Ideal ⟨2, ![1, N]⟩ .f32)
    (h1 : (⟨2, ![1, N]⟩ : Shape).Broadcasts ⟨2, ![M, N]⟩) :
    addf (mulf Y (broadcastTo ⟨2, ![M, N]⟩ g h1)) (broadcastTo ⟨2, ![M, N]⟩ b h1) = scaleShift Y g b := by
  funext i
  obtain ⟨p, q, rfl⟩ : ∃ (p : Fin M) (q : Fin N), i = ix2 p q := ⟨i 0, i 1, eq_ix2 i⟩
  show Y (ix2 p q) * broadcastTo ⟨2, ![M, N]⟩ g h1 (ix2 p q) + broadcastTo ⟨2, ![M, N]⟩ b h1 (ix2 p q) = _
  rw [broadcastTo_1b_ab_apply, broadcastTo_1b_ab_apply]
  rfl

end Vec

/-! ## The host's spelling -/

section Host

variable {M N : ℕ} (X : FVec Ideal ⟨2, ![M, N]⟩ .f32) (cw ew : BitVec 32)
  (hr' : (⟨2, ![M, N]⟩ : Shape).ReducesTo [1] ⟨1, ![M]⟩)
  (hu : 0 < (⟨0, ![]⟩ : Shape).numel)
  (hv : (⟨1, ![M]⟩ : Shape).BroadcastsInDim ⟨2, ![M, 1]⟩ ![0])
  (h0 : (⟨0, ![]⟩ : Shape).BroadcastsInDim ⟨2, ![M, 1]⟩ ![])
  (hb : (⟨2, ![M, 1]⟩ : Shape).BroadcastsInDim ⟨2, ![M, N]⟩ ![0, 1])

/-- The host's row sums from a zero, broadcast to a column, over the broadcast count: the column of means. -/
theorem hostMeanCol (hr : (⟨2, ![M, N]⟩ : Shape).Reduces [1] ⟨1, ![M]⟩) :
    Host.divf (F := Ideal) (φ := .f32) (broadcastInDim ⟨2, ![M, 1]⟩ ![0] hv (Host.reduceAdd X (constant (F := Ideal) ⟨0, ![]⟩ .f32 0x00000000#32) hr' hu))
        (broadcastInDim ⟨2, ![M, 1]⟩ ![] h0 (constant (F := Ideal) ⟨0, ![]⟩ .f32 cw))
      = meanCol X (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat, Cert.HostLayout.hostRowSum X _ hr' hr hu p]
  show Ideal.div (Ideal.ofBits .f32 0x00000000#32 + _) (Ideal.ofBits .f32 cw) = _
  rw [Ideal.ofBits_zero_f32, zero_add]
  rfl

/-- The array less the column of means broadcast along the rows: the deviations. -/
theorem hostCentered (cnt : EReal) :
    subf (F := Ideal) (φ := .f32) X (broadcastInDim ⟨2, ![M, N]⟩ ![0, 1] hb (meanCol X cnt)) = centered X cnt := by
  funext i
  obtain ⟨p, q, rfl⟩ : ∃ (p : Fin M) (q : Fin N), i = ix2 p q := ⟨i 0, i 1, eq_ix2 i⟩
  show X (ix2 p q) - broadcastInDim ⟨2, ![M, N]⟩ ![0, 1] hb (meanCol X cnt) (ix2 p q) = _
  rw [Cert.HostLayout.bcast_col_mat]
  rfl

/-- The host's row sums of the squared deviations, to a column, over the broadcast count: the column of variances. -/
theorem hostVarCol (hr : (⟨2, ![M, N]⟩ : Shape).Reduces [1] ⟨1, ![M]⟩) (cnt : EReal) :
    Host.divf (F := Ideal) (φ := .f32) (broadcastInDim ⟨2, ![M, 1]⟩ ![0] hv
          (Host.reduceAdd (F := Ideal) (φ := .f32) (mulf (F := Ideal) (φ := .f32) (centered X cnt) (centered X cnt)) (constant (F := Ideal) ⟨0, ![]⟩ .f32 0x00000000#32) hr' hu))
        (broadcastInDim ⟨2, ![M, 1]⟩ ![] h0 (constant (F := Ideal) ⟨0, ![]⟩ .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat,
    Cert.HostLayout.hostRowSum (mulf (F := Ideal) (φ := .f32) (centered X cnt) (centered X cnt)) _ hr' hr hu p]
  show Ideal.div (Ideal.ofBits .f32 0x00000000#32 + _) (Ideal.ofBits .f32 cw) = _
  rw [Ideal.ofBits_zero_f32, zero_add]
  rfl

/-- The deviations over the broadcast square root of the variance column plus the broadcast epsilon. -/
theorem hostLnH :
    Host.divf (F := Ideal) (φ := .f32) (centered X (Ideal.ofBits .f32 cw))
        (broadcastInDim ⟨2, ![M, N]⟩ ![0, 1] hb
          (Host.sqrt (F := Ideal) (φ := .f32) (addf (F := Ideal) (φ := .f32)
            (fun i => Ideal.div (sqSum X (Ideal.ofBits .f32 cw) (c0 i)) (Ideal.ofBits .f32 cw))
            (broadcastInDim ⟨2, ![M, 1]⟩ ![] h0 (constant (F := Ideal) ⟨0, ![]⟩ .f32 ew)))))
      = lnH X (Ideal.ofBits .f32 cw) (Ideal.ofBits .f32 ew) := by
  funext i
  obtain ⟨p, q, rfl⟩ : ∃ (p : Fin M) (q : Fin N), i = ix2 p q := ⟨i 0, i 1, eq_ix2 i⟩
  simp only [Host.divf]
  rw [Cert.HostLayout.bcast_col_mat]
  simp only [Host.sqrt, addf]
  rw [Cert.HostLayout.bcast_scalar_mat]
  rfl

/-- Every row times the vector `g` laid along the rows, plus the vector `b` laid along the rows. -/
theorem hostScaleShift (Y : FVec Ideal ⟨2, ![M, N]⟩ .f32) (g b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) (mulf Y (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 b))
      = scaleShift Y (row g) (row b) := by
  funext i
  obtain ⟨p, q, rfl⟩ : ∃ (p : Fin M) (q : Fin N), i = ix2 p q := ⟨i 0, i 1, eq_ix2 i⟩
  show Y (ix2 p q) * broadcastInDim ⟨2, ![M, N]⟩ ![0, 1] h2 (broadcastInDim ⟨2, ![1, N]⟩ ![1] h1 g) (ix2 p q)
      + broadcastInDim ⟨2, ![M, N]⟩ ![0, 1] h2 (broadcastInDim ⟨2, ![1, N]⟩ ![1] h1 b) (ix2 p q) = _
  rw [Cert.HostLayout.bcast_vec_mat, Cert.HostLayout.bcast_vec_mat]
  rfl

end Host

end Cert.LayerNorm

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«128167_j73443940762169_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibNormMlp.lean ====
/-
  A two-layer perceptron's tail on the extended reals, over rank-2 arrays of any extents.

  From the first layer's product `P` (rows × hidden): add the one-row bias and rectify, normalise each row (mean and
  variance over the row, a positive count and a positive epsilon), scale and shift by one-row arrays, multiply by the
  second layer's matrix and add its one-row bias.  `tailK` normalises with the reciprocal square root, `tailH` with the
  quotient by the square root; they are equal (`LibLayerNorm`).  A row of the result depends on the same row of `P` only.
-/
import proofs.«128167_j73443940762169_2_alg».proof.Proof.LibLayerNorm
import proofs.«128167_j73443940762169_2_alg».proof.Proof.LibBiasRow

noncomputable section

open scoped BigOperators

namespace Cert.NormMlp

open Idealize.ShloMosaic Idealize.ShloMosaic.ValueIdx Cert.Dense Cert.BiasRow Cert.LayerNorm

/-- Bias, rectify, normalise (reciprocal square root), scale and shift, second layer, bias. -/
def tailK {M H O : ℕ} (P : Mat M H) (b1 g be : Mat 1 H) (W2 : Mat H O) (b2 : Mat 1 O) (cnt eps : EReal) : Mat M O :=
  addRow (mm (scaleShift (lnK (reluBias P b1) cnt eps) g be) W2) b2

/-- The same with the quotient by the square root. -/
def tailH {M H O : ℕ} (P : Mat M H) (b1 g be : Mat 1 H) (W2 : Mat H O) (b2 : Mat 1 O) (cnt eps : EReal) : Mat M O :=
  addRow (mm (scaleShift (lnH (reluBias P b1) cnt eps) g be) W2) b2

theorem tailK_eq_tailH {M H O : ℕ} (P : Mat M H) (b1 g be : Mat 1 H) (W2 : Mat H O) (b2 : Mat 1 O)
    {r : ℝ} (hr : 0 < r) {eps : EReal} (heps : 0 < eps) :
    tailK P b1 g be W2 b2 (r : EReal) eps = tailH P b1 g be W2 b2 (r : EReal) eps := by
  unfold tailK tailH
  rw [lnK_eq_lnH _ hr heps]

/-- A row of the tail's result depends on the same row of the first layer's product. -/
theorem tailH_congr {M M' H O : ℕ} (P : Mat M H) (P' : Mat M' H) (b1 g be : Mat 1 H) (W2 : Mat H O) (b2 : Mat 1 O)
    (cnt eps : EReal) (p : Fin M) (p' : Fin M') (h : ∀ k, P' (ix2 p' k) = P (ix2 p k)) (q : Fin O) :
    tailH P' b1 g be W2 b2 cnt eps (ix2 p' q) = tailH P b1 g be W2 b2 cnt eps (ix2 p q) := by
  have hR : ∀ k, reluBias P' b1 (ix2 p' k) = reluBias P b1 (ix2 p k) := fun k => by
    show max (P' (ix2 p' k) + b1 (ix2 (0 : Fin 1) k)) 0 = max (P (ix2 p k) + b1 (ix2 (0 : Fin 1) k)) 0
    rw [h k]
  have hY : ∀ k, scaleShift (lnH (reluBias P' b1) cnt eps) g be (ix2 p' k)
      = scaleShift (lnH (reluBias P b1) cnt eps) g be (ix2 p k) := fun k => by
    rw [scaleShift_apply, scaleShift_apply, lnH_congr (reluBias P b1) (reluBias P' b1) cnt eps p p' hR k]
  show mm _ W2 (ix2 p' q) + b2 (ix2 (0 : Fin 1) q) = mm _ W2 (ix2 p q) + b2 (ix2 (0 : Fin 1) q)
  rw [mm_rows _ _ W2 p p' hY q]

/-- A sum over `c = a + b` terms splits into the first `a` and the last `b`. -/
theorem sum_split {a b c : ℕ} (h : a + b = c) (f : Fin c → EReal) :
    ∑ k : Fin c, f k = (∑ k : Fin a, f ⟨k.val, by omega⟩) + ∑ k : Fin b, f ⟨a + k.val, by omega⟩ := by
  subst h
  rw [Fin.sum_univ_add]
  rfl

/-- A sum over `d = a + b + c` terms splits into three runs. -/
theorem sum_split3 {a b c d : ℕ} (h : a + b + c = d) (f : Fin d → EReal) :
    ∑ k : Fin d, f k = ((∑ k : Fin a, f ⟨k.val, by omega⟩) + ∑ k : Fin b, f ⟨a + k.val, by omega⟩)
      + ∑ k : Fin c, f ⟨a + b + k.val, by omega⟩ := by
  rw [sum_split h f, sum_split (rfl : a + b = a + b) (fun k : Fin (a + b) => f ⟨k.val, by omega⟩)]

end Cert.NormMlp

end
-- ==== Proof.LibConcatDot.lean ====
/-
  A matrix product whose left operand is a concatenation along the columns, on the extended reals, over rank-2 arrays
  of any extents.

  With the columns of the left operand laid end to end, `[A | B] W = A W₀ + B W₁`, where `W₀` is the slab of the first
  `a` rows of `W` and `W₁` the slab of the next `b` rows: the contraction sum over `a + b` terms is the sum over the first
  `a` terms plus the sum over the last `b`, in a left factor that reads `A` on the first run and `B` on the second, and a
  right factor that reads the matching row of `W`. Only the associativity of a finite sum is used, so nothing has to be
  finite. The same with three pieces, `[A | B | C] W = (A W₀ + B W₁) + C W₂`.

  The offset of the second (third) slab is a variable with a hypothesis that it is the first extent (the sum of the first
  two), so that the statements apply to a slab whose offset is written as a numeral.
-/
import proofs.«128167_j73443940762169_2_alg».proof.Proof.LibDense
import proofs.«128167_j73443940762169_2_alg».proof.Proof.LibNormMlp

noncomputable section

open scoped BigOperators

namespace Cert.ConcatDot

open Idealize.ShloMosaic Idealize.ShloMosaic.ValueIdx Cert.Dense Cert.NormMlp

/-! ## A slab of rows read at an index -/

/-- The slab of `a` rows of `W` starting at row `off`, read at `(k, q)`, is `W` at `(off + k, q)`. -/
theorem slab_apply {c N : ℕ} (W : Mat c N) (off a : ℕ)
    (hs : (⟨2, ![c, N]⟩ : Shape).Slices ![off, 0] ⟨2, ![a, N]⟩) (k : Fin a) (q : Fin N) (hk : off + k.val < c) :
    extractStridedSlice ⟨2, ![a, N]⟩ ![off, 0] W hs (ix2 k q) = W (ix2 ⟨off + k.val, hk⟩ q) :=
  extractStridedSlice_apply ![off, 0] W hs (ix2 k q) (ix2 ⟨off + k.val, hk⟩ q) (fun d => match d with
    | ⟨0, _⟩ => rfl
    | ⟨1, _⟩ => by show q.val = 0 + q.val; omega)

/-- The slab of the first `a` rows of `W`, read at `(k, q)`, is `W` at `(k, q)`. -/
theorem slab_apply_zero {c N : ℕ} (W : Mat c N) (a : ℕ)
    (hs : (⟨2, ![c, N]⟩ : Shape).Slices ![0, 0] ⟨2, ![a, N]⟩) (k : Fin a) (q : Fin N) (hk : k.val < c) :
    extractStridedSlice ⟨2, ![a, N]⟩ ![0, 0] W hs (ix2 k q) = W (ix2 ⟨k.val, hk⟩ q) :=
  extractStridedSlice_apply ![0, 0] W hs (ix2 k q) (ix2 ⟨k.val, hk⟩ q) (fun d => match d with
    | ⟨0, _⟩ => by show k.val = 0 + k.val; omega
    | ⟨1, _⟩ => by show q.val = 0 + q.val; omega)

/-! ## Two pieces -/

/-- A concatenation of two pieces along the columns, read at a column of the first run, is the first piece there. -/
theorem concat2_left {M a b c : ℕ} (A : Mat M a) (B : Mat M b)
    (hc : Shape.Concatenates [(⟨2, ![M, a]⟩ : Shape), ⟨2, ![M, b]⟩] ⟨2, ![M, c]⟩ 1)
    (p : Fin M) (k : Fin a) (hk : k.val < c) :
    concatenate ⟨2, ![M, c]⟩ 1 [⟨⟨2, ![M, a]⟩, A⟩, ⟨⟨2, ![M, b]⟩, B⟩] hc (ix2 p ⟨k.val, hk⟩) = A (ix2 p k) :=
  concatenate_pair_apply_left 1 A B hc (ix2 p ⟨k.val, hk⟩) rfl (ix2 p k) (fun d => match d with
    | ⟨0, _⟩ => rfl
    | ⟨1, _⟩ => rfl)

/-- A concatenation of two pieces along the columns, read at a column of the second run — the first piece's extent
    plus `k` — is the second piece at column `k`. -/
theorem concat2_right {M a b c : ℕ} (A : Mat M a) (B : Mat M b)
    (hc : Shape.Concatenates [(⟨2, ![M, a]⟩ : Shape), ⟨2, ![M, b]⟩] ⟨2, ![M, c]⟩ 1)
    (p : Fin M) (k : Fin b) (hk : a + k.val < c) :
    concatenate ⟨2, ![M, c]⟩ 1 [⟨⟨2, ![M, a]⟩, A⟩, ⟨⟨2, ![M, b]⟩, B⟩] hc (ix2 p ⟨a + k.val, hk⟩) = B (ix2 p k) :=
  concatenate_pair_apply_right 1 A B hc (ix2 p ⟨a + k.val, hk⟩) rfl rfl (ix2 p k)
    (fun d hd => match d, hd with
      | ⟨0, _⟩, _ => rfl
      | ⟨1, _⟩, hd => absurd rfl hd)
    (by show k.val + a = a + k.val; omega)

/-- `[A | B] W = A W₀ + B W₁`: the host's plain dot product of a two-piece concatenation along the columns with `W` is
    the sum of the two pieces' matrix products with the matching row slabs of `W`. -/
theorem hostDot_concat2 {M a b c N : ℕ} {φ₁ φ₂ : FTy} (h : a + b = c)
    (D : DotDims ⟨2, ![M, c]⟩ ⟨2, ![c, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : Mat M a) (B : Mat M b) (W : Mat c N)
    (hc : Shape.Concatenates [(⟨2, ![M, a]⟩ : Shape), ⟨2, ![M, b]⟩] ⟨2, ![M, c]⟩ 1)
    (o1 : ℕ) (ho1 : o1 = a)
    (hs0 : (⟨2, ![c, N]⟩ : Shape).Slices ![0, 0] ⟨2, ![a, N]⟩)
    (hs1 : (⟨2, ![c, N]⟩ : Shape).Slices ![o1, 0] ⟨2, ![b, N]⟩) :
    Host.dotGeneral (F := Ideal) (φ₁ := φ₁) (φ₂ := φ₂) D prec
        (concatenate ⟨2, ![M, c]⟩ 1 [⟨⟨2, ![M, a]⟩, A⟩, ⟨⟨2, ![M, b]⟩, B⟩] hc) W
      = addf (F := Ideal) (φ := .f32) (s := ⟨2, ![M, N]⟩)
          (mm A (extractStridedSlice ⟨2, ![a, N]⟩ ![0, 0] W hs0))
          (mm B (extractStridedSlice ⟨2, ![b, N]⟩ ![o1, 0] W hs1)) := by
  subst o1
  funext i
  obtain ⟨p, q, rfl⟩ : ∃ (p : Fin M) (q : Fin N), i = ix2 p q := ⟨i 0, i 1, eq_ix2 i⟩
  rw [hostDot_eq_mm D h1 h2 h3 h4 h5 h6 prec]
  show mm _ W (ix2 p q) = mm A _ (ix2 p q) + mm B _ (ix2 p q)
  rw [mm_apply, mm_apply, mm_apply, sum_split h]
  congr 1
  · refine Finset.sum_congr rfl fun k _ => ?_
    rw [concat2_left A B hc p k, slab_apply_zero W a hs0 k q]
  · refine Finset.sum_congr rfl fun k _ => ?_
    rw [concat2_right A B hc p k, slab_apply W a b hs1 k q]

/-! ## Three pieces -/

/-- A concatenation of three pieces along the columns, read at a column of the first run, is the first piece there. -/
theorem concat3_1 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin a) (hk : k.val < d) :
    concatenate ⟨2, ![M, d]⟩ 1 [⟨⟨2, ![M, a]⟩, A⟩, ⟨⟨2, ![M, b]⟩, B⟩, ⟨⟨2, ![M, c]⟩, C⟩] hc (ix2 p ⟨k.val, hk⟩)
      = A (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨k.val, hk⟩) 0 (by show 0 < 3; omega) ⟨2, ![M, a]⟩ A rfl rfl 0 rfl (ix2 p k)
    (fun e he => match e, he with
      | ⟨0, _⟩, _ => rfl
      | ⟨1, _⟩, he => absurd rfl he)
    (by show 0 + k.val = k.val; omega)

/-- A concatenation of three pieces along the columns, read at a column of the second run — the first piece's extent
    plus `k` — is the second piece at column `k`. -/
theorem concat3_2 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin b) (hk : a + k.val < d) :
    concatenate ⟨2, ![M, d]⟩ 1 [⟨⟨2, ![M, a]⟩, A⟩, ⟨⟨2, ![M, b]⟩, B⟩, ⟨⟨2, ![M, c]⟩, C⟩] hc (ix2 p ⟨a + k.val, hk⟩)
      = B (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨a + k.val, hk⟩) 1 (by show 1 < 3; omega) ⟨2, ![M, b]⟩ B rfl rfl a rfl (ix2 p k)
    (fun e he => match e, he with
      | ⟨0, _⟩, _ => rfl
      | ⟨1, _⟩, he => absurd rfl he)
    rfl

/-- A concatenation of three pieces along the columns, read at a column of the third run — the first two pieces'
    extents plus `k` — is the third piece at column `k`. -/
theorem concat3_3 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin c) (hk : a + b + k.val < d) :
    concatenate ⟨2, ![M, d]⟩ 1 [⟨⟨2, ![M, a]⟩, A⟩, ⟨⟨2, ![M, b]⟩, B⟩, ⟨⟨2, ![M, c]⟩, C⟩] hc (ix2 p ⟨a + b + k.val, hk⟩)
      = C (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨a + b + k.val, hk⟩) 2 (by show 2 < 3; omega) ⟨2, ![M, c]⟩ C rfl rfl (a + b) rfl (ix2 p k)
    (fun e he => match e, he with
      | ⟨0, _⟩, _ => rfl
      | ⟨1, _⟩, he => absurd rfl he)
    rfl

/-- `[A | B | C] W = (A W₀ + B W₁) + C W₂`: the host's plain dot product of a three-piece concatenation along the
    columns with `W` is the sum of the three pieces' matrix products with the matching row slabs of `W`. -/
theorem hostDot_concat3 {M a b c d N : ℕ} {φ₁ φ₂ : FTy} (h : a + b + c = d)
    (D : DotDims ⟨2, ![M, d]⟩ ⟨2, ![d, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : Mat M a) (B : Mat M b) (C : Mat M c) (W : Mat d N)
    (hc : Shape.Concatenates [(⟨2, ![M, a]⟩ : Shape), ⟨2, ![M, b]⟩, ⟨2, ![M, c]⟩] ⟨2, ![M, d]⟩ 1)
    (o1 o2 : ℕ) (ho1 : o1 = a) (ho2 : o2 = a + b)
    (hs0 : (⟨2, ![d, N]⟩ : Shape).Slices ![0, 0] ⟨2, ![a, N]⟩)
    (hs1 : (⟨2, ![d, N]⟩ : Shape).Slices ![o1, 0] ⟨2, ![b, N]⟩)
    (hs2 : (⟨2, ![d, N]⟩ : Shape).Slices ![o2, 0] ⟨2, ![c, N]⟩) :
    Host.dotGeneral (F := Ideal) (φ₁ := φ₁) (φ₂ := φ₂) D prec
        (concatenate ⟨2, ![M, d]⟩ 1 [⟨⟨2, ![M, a]⟩, A⟩, ⟨⟨2, ![M, b]⟩, B⟩, ⟨⟨2, ![M, c]⟩, C⟩] hc) W
      = addf (F := Ideal) (φ := .f32) (s := ⟨2, ![M, N]⟩)
          (addf (F := Ideal) (φ := .f32) (s := ⟨2, ![M, N]⟩)
            (mm A (extractStridedSlice ⟨2, ![a, N]⟩ ![0, 0] W hs0))
            (mm B (extractStridedSlice ⟨2, ![b, N]⟩ ![o1, 0] W hs1)))
          (mm C (extractStridedSlice ⟨2, ![c, N]⟩ ![o2, 0] W hs2)) := by
  subst o1 o2
  funext i
  obtain ⟨p, q, rfl⟩ : ∃ (p : Fin M) (q : Fin N), i = ix2 p q := ⟨i 0, i 1, eq_ix2 i⟩
  rw [hostDot_eq_mm D h1 h2 h3 h4 h5 h6 prec]
  show mm _ W (ix2 p q) = (mm A _ (ix2 p q) + mm B _ (ix2 p q)) + mm C _ (ix2 p q)
  rw [mm_apply, mm_apply, mm_apply, mm_apply, sum_split3 h]
  congr 1
  · congr 1
    · refine Finset.sum_congr rfl fun k _ => ?_
      rw [concat3_1 A B C hc p k, slab_apply_zero W a hs0 k q]
    · refine Finset.sum_congr rfl fun k _ => ?_
      rw [concat3_2 A B C hc p k, slab_apply W a b hs1 k q]
  · refine Finset.sum_congr rfl fun k _ => ?_
    rw [concat3_3 A B C hc p k, slab_apply W (a + b) c hs2 k q]

end Cert.ConcatDot

end
-- ==== Proof.Bridge.lean ====
/-
  The three laws that join the kernel's regions to the host's stages, on the extended reals.

  A region computes a block of rows of a matrix product on the matrix unit; read over the whole array its result is
  `mm`, the plain sum of products. The host computes the same layers with one dot product over a concatenation of
  columns. The product of `[A | B]` with `W` is `A` times the first rows of `W` plus `B` times the remaining rows: a
  finite sum cut in two, which holds for every extended real, so nothing here needs an entry to be finite. A rectifier
  is the maximum with zero on both sides, a one-row bias is added to every row on both sides.
-/
import proofs.«128167_j73443940762169_2_alg».proof.Proof.Stages
import proofs.«128167_j73443940762169_2_alg».proof.Proof.LibConcatDot

noncomputable section

open scoped BigOperators

namespace Cert.Dmpnn

open Cert.ReferenceIdeal Cert.ReferenceIdeal.Gen Idealize.ShloMosaic Idealize.ShloMosaic.ValueIdx Cert.Dense

/-- The first messages: the source rows times the first 133 rows of the weights plus the edge rows times the last 14,
    rectified, is the rectified product of the two laid side by side with the whole weight matrix. -/
theorem edgeInit_bridge (g : Arr Ideal S800000x133 .f32) (x3 : Arr Ideal S800000x14 .f32) (x5 : Arr Ideal S147x128 .f32)
    (hs0 : (⟨2, ![147, 128]⟩ : Shape).Slices ![0, 0] ⟨2, ![133, 128]⟩)
    (hs1 : (⟨2, ![147, 128]⟩ : Shape).Slices ![133, 0] ⟨2, ![14, 128]⟩) :
    (fun i => max (mm (M := 800000) (K := 133) (N := 128) g (extractStridedSlice ⟨2, ![133, 128]⟩ ![0, 0] x5 hs0) i
        + mm (M := 800000) (K := 14) (N := 128) x3 (extractStridedSlice ⟨2, ![14, 128]⟩ ![133, 0] x5 hs1) i) 0)
      = edgeInit g x3 x5 := by
  unfold edgeInit
  rw [Cert.ConcatDot.hostDot_concat2 (a := 133) (b := 14) (c := 147) rfl
    dot_S800000x147_S147x128_S800000x128_1_0_0_1_n_n rfl rfl rfl rfl rfl rfl none g x3 x5
    concatenates_S800000x133_S800000x14_S800000x147_d1 133 rfl hs0 hs1]
  funext i
  obtain ⟨p, q, rfl⟩ : ∃ (p : Fin 800000) (q : Fin 128), i = ix2 p q := ⟨i 0, i 1, eq_ix2 i⟩
  show _ = max (_ + _) (broadcastInDim S800000x128 ![] bcast_S_S800000x128 (constant (F := Ideal) S_ .f32 0x00000000#32) (ix2 p q))
  rw [broadcastInDim_apply ![] bcast_S_S800000x128 _ (ix2 p q) ix0 (fun a => a.elim0)]
  show _ = max (_ + _) (Ideal.ofBits .f32 0x00000000#32)
  rw [Ideal.ofBits_zero_f32]

/-- A round of message passing: the first messages plus the handed differences times the weights, rectified. -/
theorem update_bridge (h0 mg : Arr Ideal S800000x128 .f32) (x6 : Arr Ideal S128x128 .f32) :
    (fun i => max (h0 i + mm (M := 800000) (K := 128) (N := 128) mg x6 i) 0) = update h0 mg x6 := by
  unfold update
  rw [hostDot_eq_mm dot_S800000x128_S128x128_S800000x128_1_0_0_1_n_n rfl rfl rfl rfl rfl rfl none mg x6]
  funext i
  obtain ⟨p, q, rfl⟩ : ∃ (p : Fin 800000) (q : Fin 128), i = ix2 p q := ⟨i 0, i 1, eq_ix2 i⟩
  show _ = max (_ + _) (broadcastInDim S800000x128 ![] bcast_S_S800000x128 (constant (F := Ideal) S_ .f32 0x00000000#32) (ix2 p q))
  rw [broadcastInDim_apply ![] bcast_S_S800000x128 _ (ix2 p q) ix0 (fun a => a.elim0)]
  show _ = max (_ + _) (Ideal.ofBits .f32 0x00000000#32)
  rw [Ideal.ofBits_zero_f32]

/-- The node layer: the feature rows times the first 133 rows of the weights plus the arriving sums times the last 128,
    plus the bias row, rectified, is the rectified affine layer of the two laid side by side. -/
theorem nodeUpdate_bridge (x0 : Arr Ideal S50000x133 .f32) (v : Arr Ideal S50000x128 .f32) (x7 : Arr Ideal S261x128 .f32)
    (x8 : Arr Ideal S128 .f32)
    (hs0 : (⟨2, ![261, 128]⟩ : Shape).Slices ![0, 0] ⟨2, ![133, 128]⟩)
    (hs1 : (⟨2, ![261, 128]⟩ : Shape).Slices ![133, 0] ⟨2, ![128, 128]⟩)
    (hb : (⟨1, ![128]⟩ : Shape).ShapeCasts ⟨2, ![1, 128]⟩) :
    (fun i => max (mm (M := 50000) (K := 133) (N := 128) x0 (extractStridedSlice ⟨2, ![133, 128]⟩ ![0, 0] x7 hs0) i
        + mm (M := 50000) (K := 128) (N := 128) v (extractStridedSlice ⟨2, ![128, 128]⟩ ![133, 0] x7 hs1) i
        + shapeCast ⟨2, ![1, 128]⟩ x8 hb (ix2 (0 : Fin 1) (c1 i))) 0)
      = nodeUpdate x0 v x7 x8 := by
  unfold nodeUpdate
  rw [Cert.ConcatDot.hostDot_concat2 (a := 133) (b := 128) (c := 261) rfl
    dot_S50000x261_S261x128_S50000x128_1_0_0_1_n_n rfl rfl rfl rfl rfl rfl none x0 v x7
    concatenates_S50000x133_S50000x128_S50000x261_d1 133 rfl hs0 hs1,
    hostReluBias _ x8 bcast_S128_S1x128_1 bcast_S1x128_S50000x128_0_1 bcast_S_S50000x128, shapeCast_row x8 hb]
  rfl

end Cert.Dmpnn

end
-- ==== Proof.EdgeInitRegion.lean ====
/-
  The edge-initialisation region, from blocks to the array.

  The region walks 80 grid points; point t stages rows 10000·t … 10000·t + 9999 of the two edge-feature arrays and the
  two whole weight matrices, and writes back the same rows of the result. What a point writes is, row by row,
  max (x·W + y·W', 0) of the staged rows, a row of a matrix product depends on the same row of the left operand only,
  and the 80 row blocks tile the 800000 rows: so the result array ends at max (X·W + Y·W', 0) of the whole arrays.
-/
import proofs.«128167_j73443940762169_2_alg».proof.Proof.Gen.KernelIdeal.Frame
import proofs.«128167_j73443940762169_2_alg».proof.Proof.LibDense
import Idealize.ShloMosaic.Lib.Pipeline.Value
import Idealize.ShloMosaic.Lib.ValueIdx

noncomputable section

namespace Cert.KernelIdeal.Regions

open Cert.KernelIdeal Cert.KernelIdeal.Gen Cert.Dense Idealize.ShloMosaic Idealize.ShloMosaic.ValueIdx
open Idealize.ShloMosaic.TcCoe Idealize.SL.Sem
open Idealize.ShloMosaic.Pipeline (Dat)

/-- The zero offset vector of a whole-buffer access. -/
theorem zero_offsets : (![0, 0] : Fin 2 → Nat) = fun _ => 0 := funext fun a => by fin_cases a <;> rfl

/-- The rectified sum of the two products, as one function of whole arrays. -/
abbrev edgeInitOf {M : ℕ} (X : Mat M 133) (W : Mat 133 128) (Y : Mat M 14) (W' : Mat 14 128) : Mat M 128 :=
  fun i => max (mm X W i + mm Y W' i) 0

/-- The body's payload on staged blocks is the rectified sum of the two products of the blocks. -/
theorem edgeInit_payload (x0 : Vec Ideal S10000x133 .bf16) (x1 : Vec Ideal S10000x14 .bf16)
    (x2 : Vec Ideal S133x128 .bf16) (x3 : Vec Ideal S14x128 .bf16) :
    k0_pay1 x0 x1 x2 x3 = edgeInitOf (M := 10000) x0 x2 x1 x3 := by
  unfold k0_pay1
  simp only [shapeCast_self]
  rw [matmul_zero_eq_mm _ rfl rfl rfl rfl rfl rfl, matmul_zero_eq_mm _ rfl rfl rfl rfl rfl rfl]
  funext j
  show max (_ + _) (Ideal.ofBits .f32 0x00000000#32) = _
  rw [Ideal.ofBits_zero_f32]

/-- One row of the payload on blocks is the same row of the whole-array function, when the staged rows are the
    arrays' rows and the staged weights are the weights: a row of a product reads the same row of the left operand only. -/
theorem edgeInit_point {M : ℕ} (X : Mat M 133) (W : Mat 133 128) (Y : Mat M 14) (W' : Mat 14 128)
    (x0 : Mat 10000 133) (x2 : Mat 133 128) (x1 : Mat 10000 14) (x3 : Mat 14 128)
    (j : S10000x128.Idx) (i : (⟨2, ![M, 128]⟩ : Shape).Idx)
    (h0 : ∀ k : Fin 133, x0 (ix2 (c0 j) k) = X (ix2 (c0 i) k))
    (h1 : ∀ k : Fin 14, x1 (ix2 (c0 j) k) = Y (ix2 (c0 i) k))
    (h2 : x2 = W) (h3 : x3 = W') (hq : (j 1).val = (i 1).val) :
    edgeInitOf x0 x2 x1 x3 j = edgeInitOf X W Y W' i := by
  subst h2 h3
  obtain ⟨p, q, rfl⟩ : ∃ (p : Fin 10000) (q : Fin 128), j = ix2 p q := ⟨j 0, j 1, eq_ix2 j⟩
  obtain ⟨p', q', rfl⟩ : ∃ (p' : Fin M) (q' : Fin 128), i = ix2 p' q' := ⟨i 0, i 1, eq_ix2 i⟩
  obtain rfl : q = q' := Fin.ext hq
  show max (mm x0 x2 (ix2 p q) + mm x1 x3 (ix2 p q)) 0 = max (mm X x2 (ix2 p' q) + mm Y x3 (ix2 p' q)) 0
  rw [mm_rows X x0 x2 p' p h0 q, mm_rows Y x1 x3 p' p h1 q]

/-- The printed index maps, decided over the 80 points: the two row-blocked inputs move with the output, whose row
    block is the point's number; the weights stay at block (0, 0); no window moves along the columns. -/
theorem edgeInit_index : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- What point t writes back is block t of the whole-array function of the arrays the region found. -/
theorem edgeInit_flushed (c : Dev nD) (t : Fin cfg0.N) :
    (dat0 (F := Ideal) V c).flushed 4 t
      = ((cfg0.win 4).blk t).view.read (Elt Ideal)
          (edgeInitOf (M := 800000) (V c main_v12) (V c main_v14) (V c main_v5) (V c main_v16)) := by
  show (cfg0.win 4).cut (grid0.coords t) ((dat0 V c).after 4 t) = _
  rw [after0_4]
  unfold out0_4
  rw [View.canon_unit_zero zero_offsets]
  simp only [View.ld_unit_zero (S := S10000x133) zero_offsets, View.ld_unit_zero (S := S10000x14) zero_offsets,
    View.ld_unit_zero (S := S133x128) zero_offsets, View.ld_unit_zero (S := S14x128) zero_offsets]
  rw [edgeInit_payload]
  obtain ⟨e00, e01, e10, e11, e20, e21, e30, e31, e40, e41⟩ := edgeInit_index t
  funext j
  show edgeInitOf (M := 10000) (iblk0 V c 0 t) (iblk0 V c 2 t) (iblk0 V c 1 t) (iblk0 V c 3 t) j
    = edgeInitOf (M := 800000) (V c main_v12) (V c main_v14) (V c main_v5) (V c main_v16) (((cfg0.win 4).blk t).view.emb j)
  refine edgeInit_point _ _ _ _ _ _ _ _ j _ (fun k => ?_) (fun k => ?_) (funext fun y => ?_) (funext fun y => ?_) ?_
  · show V c main_v12 (((cfg0.win 0).blk t).view.emb (ix2 (c0 j) k)) = V c main_v12 _
    congr 1
    funext a; apply Fin.ext
    match a with
    | ⟨0, _⟩ => show win0_0.index t (0 : Fin 2) * 10000 + 1 * (j 0).val = win0_4.index t (0 : Fin 2) * 10000 + 1 * (j 0).val; omega
    | ⟨1, _⟩ => show win0_0.index t (1 : Fin 2) * 133 + 1 * k.val = k.val; omega
  · show V c main_v5 (((cfg0.win 1).blk t).view.emb (ix2 (c0 j) k)) = V c main_v5 _
    congr 1
    funext a; apply Fin.ext
    match a with
    | ⟨0, _⟩ => show win0_1.index t (0 : Fin 2) * 10000 + 1 * (j 0).val = win0_4.index t (0 : Fin 2) * 10000 + 1 * (j 0).val; omega
    | ⟨1, _⟩ => show win0_1.index t (1 : Fin 2) * 14 + 1 * k.val = k.val; omega
  · show V c main_v14 (((cfg0.win 2).blk t).view.emb y) = V c main_v14 y
    congr 1
    funext a; apply Fin.ext
    match a with
    | ⟨0, _⟩ => show win0_2.index t (0 : Fin 2) * 133 + 1 * (y 0).val = (y 0).val; omega
    | ⟨1, _⟩ => show win0_2.index t (1 : Fin 2) * 128 + 1 * (y 1).val = (y 1).val; omega
  · show V c main_v16 (((cfg0.win 3).blk t).view.emb y) = V c main_v16 y
    congr 1
    funext a; apply Fin.ext
    match a with
    | ⟨0, _⟩ => show win0_3.index t (0 : Fin 2) * 14 + 1 * (y 0).val = (y 0).val; omega
    | ⟨1, _⟩ => show win0_3.index t (1 : Fin 2) * 128 + 1 * (y 1).val = (y 1).val; omega
  · show (j 1).val = win0_4.index t (1 : Fin 2) * 128 + 1 * (j 1).val
    omega

/-- An index of the result array is in point t's block iff each coordinate is in the block's range on its axis. -/
theorem edgeInit_mem_blk (t : Fin cfg0.N) (i : S800000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v23).slice (win0_4.rect t)).set ↔ _
  rw [View.set_slice_whole, Rect.mem_set_unit]
  exact Iff.rfl

/-- Every index of the result array is in some point's block: row r is in the block of point r / 10000. -/
theorem edgeInit_cover (i : S800000x128.Idx) :
    ∃ t : Fin cfg0.N, (cfg0.win 4).flush t = true ∧ i ∈ ((cfg0.win 4).blk t).view.set := by
  have hi0 : (i 0).val < 800000 := idx2_lt0 i
  have hi1 : (i 1).val < 128 := idx2_lt1 i
  have hN : cfg0.N = 80 := N_0
  obtain ⟨t, ht⟩ : ∃ t : Fin cfg0.N, t.val = (i 0).val / 10000 := ⟨⟨(i 0).val / 10000, by rw [hN]; omega⟩, rfl⟩
  refine ⟨t, flush0_4 t, ?_⟩
  rw [edgeInit_mem_blk]
  obtain ⟨-, -, -, -, -, -, -, -, e40, e41⟩ := edgeInit_index t
  intro a
  match a with
  | ⟨0, _⟩ =>
    show win0_4.index t (0 : Fin 2) * 10000 ≤ (i 0).val ∧ (i 0).val < win0_4.index t (0 : Fin 2) * 10000 + 10000
    omega
  | ⟨1, _⟩ =>
    show win0_4.index t (1 : Fin 2) * 128 ≤ (i 1).val ∧ (i 1).val < win0_4.index t (1 : Fin 2) * 128 + 128
    omega

/-- The result array after the region's last point: the rectified sum of the two products of the whole arrays. -/
theorem edgeInit_array (c : Dev nD) :
    (dat0 (F := Ideal) V c).arrAt 4 cfg0.N
      = fun i => max (mm (M := 800000) (K := 133) (N := 128) (V c main_v12) (V c main_v14) i
          + mm (M := 800000) (K := 14) (N := 128) (V c main_v5) (V c main_v16) i) 0 :=
  (dat0 V c).arrAt_eq_of_cover 4
    (edgeInitOf (M := 800000) (V c main_v12) (V c main_v14) (V c main_v5) (V c main_v16))
    (fun t _ => edgeInit_flushed V c t) edgeInit_cover

end Cert.KernelIdeal.Regions

end
-- ==== Proof.EdgeUpdateRegion.lean ====
/-
  The two edge-update regions, from blocks to arrays.

  Each region walks the 800000 edge rows in 80 row blocks of 10000. At a block it adds, to the block of the initial edge
  messages, the product of the same rows of the current messages with the whole 128 × 128 weight array, and rectifies. A
  row of a matrix product depends on the same row of the left factor only, so what a block's point writes back is that
  block of ONE whole-array function: `max (E + M W, 0)` of the three arrays the region found. The 80 blocks tile the
  output array, so after the last point the output array is that function, index by index.
-/
import proofs.«128167_j73443940762169_2_alg».proof.Proof.Gen.KernelIdeal.Frame
import proofs.«128167_j73443940762169_2_alg».proof.Proof.LibDense
import Idealize.ShloMosaic.Lib.Pipeline.Value

noncomputable section

namespace Cert.KernelIdeal.Regions

open Cert.KernelIdeal Cert.KernelIdeal.Gen Cert.Dense Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem zeroOffsets : (![0, 0] : Fin 2 → Nat) = fun _ => 0 := funext fun a => by fin_cases a <;> rfl

/-- The rectified edge update over whole arrays: `max (E + M W, 0)`. -/
abbrev edgeUpdate (E M : Mat 800000 128) (W : Mat 128 128) : Mat 800000 128 :=
  fun i => max (E i + mm (M := 800000) (K := 128) (N := 128) M W i) 0

/-- One entry of a row block's update is the whole-array update's entry at the block's row, when the block's entry of
    `E` and its row of `M` are the arrays' there and its weights are the weight array. -/
theorem edge_entry (E M : Mat 800000 128) (W : Mat 128 128)
    (x0 x1 : Vec Ideal S10000x128 .bf16) (x2 : Vec Ideal S128x128 .bf16)
    (p' : Fin 10000) (p : Fin 800000) (q : Fin 128)
    (h0 : x0 (ix2 p' q) = E (ix2 p q)) (h1 : ∀ k : Fin 128, x1 (ix2 p' k) = M (ix2 p k)) (h2 : x2 = W) :
    max (x0 (ix2 p' q) + mm (M := 10000) (K := 128) (N := 128) x1 x2 (ix2 p' q)) 0 = edgeUpdate E M W (ix2 p q) := by
  subst h2
  show _ = max (E (ix2 p q) + mm (M := 800000) (K := 128) (N := 128) M x2 (ix2 p q)) 0
  rw [h0, mm_rows M x1 x2 p p' h1 q]

/-! ## Region 1 -/

/-- The body's payload: the rectified sum of the first block and the product of the other two. -/
theorem edgePay1_eq (x0 x1 : Vec Ideal S10000x128 .bf16) (x2 : Vec Ideal S128x128 .bf16) :
    k1_pay1 x0 x1 x2 = fun j => max (x0 j + mm (M := 10000) (K := 128) (N := 128) x1 x2 j) 0 := by
  unfold k1_pay1
  simp only [shapeCast_self]
  rw [matmul_zero_eq_mm _ rfl rfl rfl rfl rfl rfl]
  funext j
  show max (x0 j + mm (M := 10000) (K := 128) (N := 128) x1 x2 j) (Ideal.ofBits .f32 0x00000000#32) = _
  rw [Ideal.ofBits_zero_f32]

/-- The printed index maps, decided over the grid: the three row-blocked windows are at block row `t`, column block 0;
    the weight window is at block (0, 0). -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point `t` is rows `10000 t …` of the initial edge messages. -/
theorem block1_0_apply (c : Dev nD) (t : Fin cfg1.N) (x : S10000x128.Idx) (k : S800000x128.Idx)
    (hk0 : (k 0).val = t.val * 10000 + (x 0).val) (hk1 : (k 1).val = (x 1).val) :
    (iblk1 V c 0 t : Vec Ideal S10000x128 .bf16) x = (V c main_v23 : S800000x128.Idx → EReal) k := by
  obtain ⟨e0, e1, -⟩ := blockIndex1 t
  unfold iblk1
  rw [View.read_apply]
  show V c main_v23 _ = V c main_v23 _
  congr 1
  funext a
  apply Fin.ext
  match a with
  | ⟨0, _⟩ => show win1_0.index t (0 : Fin 2) * 10000 + 1 * (x 0).val = (k 0).val; omega
  | ⟨1, _⟩ => show win1_0.index t (1 : Fin 2) * 128 + 1 * (x 1).val = (k 1).val; omega

/-- Window 1's block at point `t` is the same rows of the current messages. -/
theorem block1_1_apply (c : Dev nD) (t : Fin cfg1.N) (x : S10000x128.Idx) (k : S800000x128.Idx)
    (hk0 : (k 0).val = t.val * 10000 + (x 0).val) (hk1 : (k 1).val = (x 1).val) :
    (iblk1 V c 1 t : Vec Ideal S10000x128 .bf16) x = (V c main_v46 : S800000x128.Idx → EReal) k := by
  obtain ⟨-, -, e0, e1, -⟩ := blockIndex1 t
  unfold iblk1
  rw [View.read_apply]
  show V c main_v46 _ = V c main_v46 _
  congr 1
  funext a
  apply Fin.ext
  match a with
  | ⟨0, _⟩ => show win1_1.index t (0 : Fin 2) * 10000 + 1 * (x 0).val = (k 0).val; omega
  | ⟨1, _⟩ => show win1_1.index t (1 : Fin 2) * 128 + 1 * (x 1).val = (k 1).val; omega

/-- Window 2's block at every point is the whole weight array. -/
theorem block1_2_eq (c : Dev nD) (t : Fin cfg1.N) :
    (iblk1 V c 2 t : Vec Ideal S128x128 .bf16) = (V c main_v17 : S128x128.Idx → EReal) := by
  obtain ⟨-, -, -, -, e0, e1, -⟩ := blockIndex1 t
  funext x
  unfold iblk1
  rw [View.read_apply]
  show V c main_v17 _ = V c main_v17 _
  congr 1
  funext a
  apply Fin.ext
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- One entry of what point `t` computes is the whole-array update's entry at row `10000 t + ` the row in the block. -/
theorem pointEntry1 (c : Dev nD) (t : Fin cfg1.N) (x0 x1 : Vec Ideal S10000x128 .bf16) (x2 : Vec Ideal S128x128 .bf16)
    (h0 : x0 = iblk1 V c 0 t) (h1 : x1 = iblk1 V c 1 t) (h2 : x2 = iblk1 V c 2 t)
    (j : S10000x128.Idx) (i : S800000x128.Idx)
    (hi0 : (i 0).val = t.val * 10000 + (j 0).val) (hi1 : (i 1).val = (j 1).val) :
    max (x0 j + mm (M := 10000) (K := 128) (N := 128) x1 x2 j) 0
      = edgeUpdate (V c main_v23) (V c main_v46) (V c main_v17) i := by
  obtain ⟨p', q, rfl⟩ : ∃ (p' : Fin 10000) (q : Fin 128), j = ix2 p' q := ⟨j 0, j 1, eq_ix2 j⟩
  have hq : i 1 = q := Fin.ext hi1
  obtain ⟨p, rfl⟩ : ∃ p : Fin 800000, i = ix2 p q := ⟨i 0, by rw [← hq]; exact eq_ix2 i⟩
  refine edge_entry (V c main_v23) (V c main_v46) (V c main_v17) x0 x1 x2 p' p q ?_ (fun k => ?_) ?_
  · rw [h0]; exact block1_0_apply V c t _ _ hi0 hi1
  · rw [h1]; exact block1_1_apply V c t _ _ hi0 rfl
  · rw [h2]; exact block1_2_eq V c t

/-- WHAT POINT `t` WRITES BACK is block `t` of the whole-array update of the arrays the region found. -/
theorem flushed1_eq (c : Dev nD) (t : Fin cfg1.N) :
    (dat1 (F := Ideal) V c).flushed 3 t
      = ((cfg1.win 3).blk t).view.read (Elt Ideal) (edgeUpdate (V c main_v23) (V c main_v46) (V c main_v17)) := by
  show (cfg1.win 3).cut (grid1.coords t) ((dat1 V c).after 3 t) = _
  rw [after1_3]
  unfold out1_3
  rw [View.canon_unit_zero zeroOffsets]
  simp only [View.ld_unit_zero (S := S10000x128) zeroOffsets, View.ld_unit_zero (S := S128x128) zeroOffsets]
  rw [edgePay1_eq]
  obtain ⟨-, -, -, -, -, -, e0, e1⟩ := blockIndex1 t
  funext j
  refine pointEntry1 V c t _ _ _ rfl rfl rfl j (((cfg1.win 3).blk t).view.emb j) ?_ ?_
  · show win1_3.index t (0 : Fin 2) * 10000 + 1 * (j 0).val = t.val * 10000 + (j 0).val; omega
  · show win1_3.index t (1 : Fin 2) * 128 + 1 * (j 1).val = (j 1).val; omega

/-- An index of the output array is in point `t`'s block iff each coordinate is in the block's range on its axis. -/
theorem mem_block1 (t : Fin cfg1.N) (i : S800000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v47).slice (win1_3.rect t)).set ↔ _
  rw [View.set_slice_whole, Rect.mem_set_unit]
  exact Iff.rfl

/-- Every index of the output array is in the block of the point its row divided by 10000 names. -/
theorem cover1 (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  obtain ⟨t, ht⟩ : ∃ t : Fin cfg1.N, t.val = (i 0).val / 10000 :=
    ⟨⟨(i 0).val / 10000, by rw [show cfg1.N = 80 from N_1]; omega⟩, rfl⟩
  obtain ⟨-, -, -, -, -, -, e0, e1⟩ := blockIndex1 t
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE OUTPUT ARRAY after the region's last point: the rectified update of the arrays the region found. -/
theorem edgeUpdate1_array (c : Dev nD) :
    (dat1 (F := Ideal) V c).arrAt 3 cfg1.N
      = edgeUpdate (V c main_v23) (V c main_v46) (V c main_v17) :=
  (dat1 (F := Ideal) V c).arrAt_eq_of_cover 3 (edgeUpdate (V c main_v23) (V c main_v46) (V c main_v17))
    (fun t _ => flushed1_eq V c t) cover1

/-! ## Region 2 -/

/-- The body's payload: the rectified sum of the first block and the product of the other two. -/
theorem edgePay2_eq (x0 x1 : Vec Ideal S10000x128 .bf16) (x2 : Vec Ideal S128x128 .bf16) :
    k2_pay1 x0 x1 x2 = fun j => max (x0 j + mm (M := 10000) (K := 128) (N := 128) x1 x2 j) 0 := by
  unfold k2_pay1
  simp only [shapeCast_self]
  rw [matmul_zero_eq_mm _ rfl rfl rfl rfl rfl rfl]
  funext j
  show max (x0 j + mm (M := 10000) (K := 128) (N := 128) x1 x2 j) (Ideal.ofBits .f32 0x00000000#32) = _
  rw [Ideal.ofBits_zero_f32]

/-- The printed index maps, decided over the grid: the three row-blocked windows are at block row `t`, column block 0;
    the weight window is at block (0, 0). -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `10000 t …` of the initial edge messages. -/
theorem block2_0_apply (c : Dev nD) (t : Fin cfg2.N) (x : S10000x128.Idx) (k : S800000x128.Idx)
    (hk0 : (k 0).val = t.val * 10000 + (x 0).val) (hk1 : (k 1).val = (x 1).val) :
    (iblk2 V c 0 t : Vec Ideal S10000x128 .bf16) x = (V c main_v23 : S800000x128.Idx → EReal) k := by
  obtain ⟨e0, e1, -⟩ := blockIndex2 t
  unfold iblk2
  rw [View.read_apply]
  show V c main_v23 _ = V c main_v23 _
  congr 1
  funext a
  apply Fin.ext
  match a with
  | ⟨0, _⟩ => show win2_0.index t (0 : Fin 2) * 10000 + 1 * (x 0).val = (k 0).val; omega
  | ⟨1, _⟩ => show win2_0.index t (1 : Fin 2) * 128 + 1 * (x 1).val = (k 1).val; omega

/-- Window 1's block at point `t` is the same rows of the current messages. -/
theorem block2_1_apply (c : Dev nD) (t : Fin cfg2.N) (x : S10000x128.Idx) (k : S800000x128.Idx)
    (hk0 : (k 0).val = t.val * 10000 + (x 0).val) (hk1 : (k 1).val = (x 1).val) :
    (iblk2 V c 1 t : Vec Ideal S10000x128 .bf16) x = (V c main_v70 : S800000x128.Idx → EReal) k := by
  obtain ⟨-, -, e0, e1, -⟩ := blockIndex2 t
  unfold iblk2
  rw [View.read_apply]
  show V c main_v70 _ = V c main_v70 _
  congr 1
  funext a
  apply Fin.ext
  match a with
  | ⟨0, _⟩ => show win2_1.index t (0 : Fin 2) * 10000 + 1 * (x 0).val = (k 0).val; omega
  | ⟨1, _⟩ => show win2_1.index t (1 : Fin 2) * 128 + 1 * (x 1).val = (k 1).val; omega

/-- Window 2's block at every point is the whole weight array. -/
theorem block2_2_eq (c : Dev nD) (t : Fin cfg2.N) :
    (iblk2 V c 2 t : Vec Ideal S128x128 .bf16) = (V c main_v17 : S128x128.Idx → EReal) := by
  obtain ⟨-, -, -, -, e0, e1, -⟩ := blockIndex2 t
  funext x
  unfold iblk2
  rw [View.read_apply]
  show V c main_v17 _ = V c main_v17 _
  congr 1
  funext a
  apply Fin.ext
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- One entry of what point `t` computes is the whole-array update's entry at row `10000 t + ` the row in the block. -/
theorem pointEntry2 (c : Dev nD) (t : Fin cfg2.N) (x0 x1 : Vec Ideal S10000x128 .bf16) (x2 : Vec Ideal S128x128 .bf16)
    (h0 : x0 = iblk2 V c 0 t) (h1 : x1 = iblk2 V c 1 t) (h2 : x2 = iblk2 V c 2 t)
    (j : S10000x128.Idx) (i : S800000x128.Idx)
    (hi0 : (i 0).val = t.val * 10000 + (j 0).val) (hi1 : (i 1).val = (j 1).val) :
    max (x0 j + mm (M := 10000) (K := 128) (N := 128) x1 x2 j) 0
      = edgeUpdate (V c main_v23) (V c main_v70) (V c main_v17) i := by
  obtain ⟨p', q, rfl⟩ : ∃ (p' : Fin 10000) (q : Fin 128), j = ix2 p' q := ⟨j 0, j 1, eq_ix2 j⟩
  have hq : i 1 = q := Fin.ext hi1
  obtain ⟨p, rfl⟩ : ∃ p : Fin 800000, i = ix2 p q := ⟨i 0, by rw [← hq]; exact eq_ix2 i⟩
  refine edge_entry (V c main_v23) (V c main_v70) (V c main_v17) x0 x1 x2 p' p q ?_ (fun k => ?_) ?_
  · rw [h0]; exact block2_0_apply V c t _ _ hi0 hi1
  · rw [h1]; exact block2_1_apply V c t _ _ hi0 rfl
  · rw [h2]; exact block2_2_eq V c t

/-- WHAT POINT `t` WRITES BACK is block `t` of the whole-array update of the arrays the region found. -/
theorem flushed2_eq (c : Dev nD) (t : Fin cfg2.N) :
    (dat2 (F := Ideal) V c).flushed 3 t
      = ((cfg2.win 3).blk t).view.read (Elt Ideal) (edgeUpdate (V c main_v23) (V c main_v70) (V c main_v17)) := by
  show (cfg2.win 3).cut (grid2.coords t) ((dat2 V c).after 3 t) = _
  rw [after2_3]
  unfold out2_3
  rw [View.canon_unit_zero zeroOffsets]
  simp only [View.ld_unit_zero (S := S10000x128) zeroOffsets, View.ld_unit_zero (S := S128x128) zeroOffsets]
  rw [edgePay2_eq]
  obtain ⟨-, -, -, -, -, -, e0, e1⟩ := blockIndex2 t
  funext j
  refine pointEntry2 V c t _ _ _ rfl rfl rfl j (((cfg2.win 3).blk t).view.emb j) ?_ ?_
  · show win2_3.index t (0 : Fin 2) * 10000 + 1 * (j 0).val = t.val * 10000 + (j 0).val; omega
  · show win2_3.index t (1 : Fin 2) * 128 + 1 * (j 1).val = (j 1).val; omega

/-- An index of the output array is in point `t`'s block iff each coordinate is in the block's range on its axis. -/
theorem mem_block2 (t : Fin cfg2.N) (i : S800000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v71).slice (win2_3.rect t)).set ↔ _
  rw [View.set_slice_whole, Rect.mem_set_unit]
  exact Iff.rfl

/-- Every index of the output array is in the block of the point its row divided by 10000 names. -/
theorem cover2 (i : S800000x128.Idx) :
    ∃ t : Fin cfg2.N, (cfg2.win 3).flush t = true ∧ i ∈ ((cfg2.win 3).blk t).view.set := by
  have hi0 : (i 0).val < 800000 := (i 0).isLt
  have hi1 : (i 1).val < 128 := (i 1).isLt
  obtain ⟨t, ht⟩ : ∃ t : Fin cfg2.N, t.val = (i 0).val / 10000 :=
    ⟨⟨(i 0).val / 10000, by rw [show cfg2.N = 80 from N_2]; omega⟩, rfl⟩
  obtain ⟨-, -, -, -, -, -, e0, e1⟩ := blockIndex2 t
  refine ⟨t, flush2_3 t, ?_⟩
  rw [mem_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- THE OUTPUT ARRAY after the region's last point: the rectified update of the arrays the region found. -/
theorem edgeUpdate2_array (c : Dev nD) :
    (dat2 (F := Ideal) V c).arrAt 3 cfg2.N
      = edgeUpdate (V c main_v23) (V c main_v70) (V c main_v17) :=
  (dat2 (F := Ideal) V c).arrAt_eq_of_cover 3 (edgeUpdate (V c main_v23) (V c main_v70) (V c main_v17))
    (fun t _ => flushed2_eq V c t) cover2

end Cert.KernelIdeal.Regions

end
-- ==== Proof.NodeRegion.lean ====
/-
  The node-update region, from blocks to the array.

  The region walks 10 grid points; point t stages rows 5000·t … 5000·t + 4999 of the node features and of the
  aggregated messages, the two whole weight matrices and the one-row bias, and writes back the same rows of the result.
  What a point writes is, row by row, max (x·W + v·W' + b, 0) of the staged rows, a row of a matrix product depends on
  the same row of the left operand only, and the 10 row blocks tile the 50000 rows: so the result array ends at
  max (X·W + Y·W' + b, 0) of the whole arrays, the bias row added to every row.
-/
import proofs.«128167_j73443940762169_2_alg».proof.Proof.Gen.KernelIdeal.Frame
import proofs.«128167_j73443940762169_2_alg».proof.Proof.LibDense
import Idealize.ShloMosaic.Lib.Pipeline.Value
import Idealize.ShloMosaic.Lib.ValueIdx

noncomputable section

namespace Cert.KernelIdeal.Regions

open Cert.KernelIdeal Cert.KernelIdeal.Gen Cert.Dense Idealize.ShloMosaic Idealize.ShloMosaic.ValueIdx
open Idealize.ShloMosaic.TcCoe Idealize.SL.Sem
open Idealize.ShloMosaic.Pipeline (Dat)

/-- The zero offset vector of a whole-buffer access. -/
theorem node_zero_offsets : (![0, 0] : Fin 2 → Nat) = fun _ => 0 := funext fun a => by fin_cases a <;> rfl

/-- The rectified sum of the two products and the bias row, as one function of whole arrays. -/
abbrev nodeOf {M : ℕ} (X : Mat M 133) (W : Mat 133 128) (Y : Mat M 128) (W' : Mat 128 128) (b : Mat 1 128) : Mat M 128 :=
  fun i => max (mm X W i + mm Y W' i + b (ix2 (0 : Fin 1) (c1 i))) 0

/-- The body's payload on staged blocks: the narrowing casts are the identity on the extended reals, each product into a
    zero accumulator is the matrix product, and the bias row is added to every row before the maximum with zero. -/
theorem node_payload (x0 : Vec Ideal S5000x133 .f32) (x1 : Vec Ideal S5000x128 .f32)
    (x2 : Vec Ideal S133x128 .bf16) (x3 : Vec Ideal S128x128 .bf16) (x4 : Vec Ideal S1x128 .f32) :
    k3_pay1 x0 x1 x2 x3 x4 = nodeOf (M := 5000) x0 x2 x1 x3 x4 := by
  unfold k3_pay1
  simp only [shapeCast_self]
  rw [matmul_zero_eq_mm _ rfl rfl rfl rfl rfl rfl, matmul_zero_eq_mm _ rfl rfl rfl rfl rfl rfl]
  rw [vecReluBias]
  rfl

/-- One row of the payload on blocks is the same row of the whole-array function, when the staged rows are the
    arrays' rows and the staged weights and bias are the weights and bias: a row of a product reads the same row of the
    left operand only, and the bias is read at the column alone. -/
theorem node_point {M : ℕ} (X : Mat M 133) (W : Mat 133 128) (Y : Mat M 128) (W' : Mat 128 128) (b : Mat 1 128)
    (x0 : Mat 5000 133) (x2 : Mat 133 128) (x1 : Mat 5000 128) (x3 : Mat 128 128) (x4 : Mat 1 128)
    (j : S5000x128.Idx) (i : (⟨2, ![M, 128]⟩ : Shape).Idx)
    (h0 : ∀ k : Fin 133, x0 (ix2 (c0 j) k) = X (ix2 (c0 i) k))
    (h1 : ∀ k : Fin 128, x1 (ix2 (c0 j) k) = Y (ix2 (c0 i) k))
    (h2 : x2 = W) (h3 : x3 = W') (h4 : x4 = b) (hq : (j 1).val = (i 1).val) :
    nodeOf x0 x2 x1 x3 x4 j = nodeOf X W Y W' b i := by
  subst h2 h3 h4
  obtain ⟨p, q, rfl⟩ : ∃ (p : Fin 5000) (q : Fin 128), j = ix2 p q := ⟨j 0, j 1, eq_ix2 j⟩
  obtain ⟨p', q', rfl⟩ : ∃ (p' : Fin M) (q' : Fin 128), i = ix2 p' q' := ⟨i 0, i 1, eq_ix2 i⟩
  obtain rfl : q = q' := Fin.ext hq
  show max (mm x0 x2 (ix2 p q) + mm x1 x3 (ix2 p q) + x4 (ix2 (0 : Fin 1) q)) 0
    = max (mm X x2 (ix2 p' q) + mm Y x3 (ix2 p' q) + x4 (ix2 (0 : Fin 1) q)) 0
  rw [mm_rows X x0 x2 p' p h0 q, mm_rows Y x1 x3 p' p h1 q]

/-- The printed index maps, decided over the 10 points: the two row-blocked inputs move with the output, whose row
    block is the point's number; the weights and the bias stay at block (0, 0); no window moves along the columns. -/
theorem node_index : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- What point t writes back is block t of the whole-array function of the arrays the region found. -/
theorem node_flushed (c : Dev nD) (t : Fin cfg3.N) :
    (dat3 (F := Ideal) V c).flushed 5 t
      = ((cfg3.win 5).blk t).view.read (Elt Ideal)
          (nodeOf (M := 50000) (V c main_arg0) (V c main_v19) (V c main_v75) (V c main_v21) (V c main_v22)) := by
  show (cfg3.win 5).cut (grid3.coords t) ((dat3 V c).after 5 t) = _
  rw [after3_5]
  unfold out3_5
  rw [View.canon_unit_zero node_zero_offsets]
  simp only [View.ld_unit_zero (S := S5000x133) node_zero_offsets, View.ld_unit_zero (S := S5000x128) node_zero_offsets,
    View.ld_unit_zero (S := S133x128) node_zero_offsets, View.ld_unit_zero (S := S128x128) node_zero_offsets,
    View.ld_unit_zero (S := S1x128) node_zero_offsets]
  rw [node_payload]
  obtain ⟨e00, e01, e10, e11, e20, e21, e30, e31, e40, e41, e50, e51⟩ := node_index t
  funext j
  show nodeOf (M := 5000) (iblk3 V c 0 t) (iblk3 V c 2 t) (iblk3 V c 1 t) (iblk3 V c 3 t) (iblk3 V c 4 t) j
    = nodeOf (M := 50000) (V c main_arg0) (V c main_v19) (V c main_v75) (V c main_v21) (V c main_v22)
        (((cfg3.win 5).blk t).view.emb j)
  refine node_point _ _ _ _ _ _ _ _ _ _ j _ (fun k => ?_) (fun k => ?_) (funext fun y => ?_) (funext fun y => ?_)
    (funext fun y => ?_) ?_
  · show V c main_arg0 (((cfg3.win 0).blk t).view.emb (ix2 (c0 j) k)) = V c main_arg0 _
    congr 1
    funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 133 + 1 * k.val = k.val; omega
  · show V c main_v75 (((cfg3.win 1).blk t).view.emb (ix2 (c0 j) k)) = V c main_v75 _
    congr 1
    funext a; apply Fin.ext
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 128 + 1 * k.val = k.val; omega
  · show V c main_v19 (((cfg3.win 2).blk t).view.emb y) = V c main_v19 y
    congr 1
    funext a; apply Fin.ext
    match a with
    | ⟨0, _⟩ => show win3_2.index t (0 : Fin 2) * 133 + 1 * (y 0).val = (y 0).val; omega
    | ⟨1, _⟩ => show win3_2.index t (1 : Fin 2) * 128 + 1 * (y 1).val = (y 1).val; omega
  · show V c main_v21 (((cfg3.win 3).blk t).view.emb y) = V c main_v21 y
    congr 1
    funext a; apply Fin.ext
    match a with
    | ⟨0, _⟩ => show win3_3.index t (0 : Fin 2) * 128 + 1 * (y 0).val = (y 0).val; omega
    | ⟨1, _⟩ => show win3_3.index t (1 : Fin 2) * 128 + 1 * (y 1).val = (y 1).val; omega
  · show V c main_v22 (((cfg3.win 4).blk t).view.emb y) = V c main_v22 y
    congr 1
    funext a; apply Fin.ext
    match a with
    | ⟨0, _⟩ => show win3_4.index t (0 : Fin 2) * 1 + 1 * (y 0).val = (y 0).val; omega
    | ⟨1, _⟩ => show win3_4.index t (1 : Fin 2) * 128 + 1 * (y 1).val = (y 1).val; omega
  · show (j 1).val = win3_5.index t (1 : Fin 2) * 128 + 1 * (j 1).val
    omega

/-- An index of the result array is in point t's block iff each coordinate is in the block's range on its axis. -/
theorem node_mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v76).slice (win3_5.rect t)).set ↔ _
  rw [View.set_slice_whole, Rect.mem_set_unit]
  exact Iff.rfl

/-- Every index of the result array is in some point's block: row r is in the block of point r / 5000. -/
theorem node_cover (i : S50000x128.Idx) :
    ∃ t : Fin cfg3.N, (cfg3.win 5).flush t = true ∧ i ∈ ((cfg3.win 5).blk t).view.set := by
  have hi0 : (i 0).val < 50000 := idx2_lt0 i
  have hi1 : (i 1).val < 128 := idx2_lt1 i
  have hN : cfg3.N = 10 := N_3
  obtain ⟨t, ht⟩ : ∃ t : Fin cfg3.N, t.val = (i 0).val / 5000 := ⟨⟨(i 0).val / 5000, by rw [hN]; omega⟩, rfl⟩
  refine ⟨t, flush3_5 t, ?_⟩
  rw [node_mem_blk]
  obtain ⟨-, -, -, -, -, -, -, -, -, -, e50, e51⟩ := node_index t
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- The result array after the region's last point: the rectified sum of the two products of the whole arrays and the
    bias row. -/
theorem node_array (c : Dev nD) :
    (dat3 (F := Ideal) V c).arrAt 5 cfg3.N
      = fun i => max (mm (M := 50000) (K := 133) (N := 128) (V c main_arg0) (V c main_v19) i
          + mm (M := 50000) (K := 128) (N := 128) (V c main_v75) (V c main_v21) i
          + V c main_v22 (ix2 (0 : Fin 1) (c1 i))) 0 :=
  (dat3 V c).arrAt_eq_of_cover 5
    (nodeOf (M := 50000) (V c main_arg0) (V c main_v19) (V c main_v75) (V c main_v21) (V c main_v22))
    (fun t _ => node_flushed V c t) node_cover

end Cert.KernelIdeal.Regions

end
-- ==== Proof.KernelValue.lean ====
/-
  The idealized kernel's two results as the network's stages of its arguments.

  Segment by segment: the first stretch gathers each edge's source features and cuts the weight matrices into their row
  slabs; the first region leaves the first messages; each of the next two stretches hands every edge the sum at its
  source less its reverse edge's message, and the region after it leaves the round's new messages; the fourth stretch
  sums the last messages at the nodes and the last region leaves the node rows; the last stretch pools them per graph and
  applies the head. At each region the array it leaves (a sum of matrix products of the arrays it found, rectified) is
  the host's layer over a concatenation (Proof/Bridge.lean), so the chain ends at the very stages the reference runs.
-/
import proofs.«128167_j73443940762169_2_alg».proof.Proof.Boundaries
import proofs.«128167_j73443940762169_2_alg».proof.Proof.Bridge
import proofs.«128167_j73443940762169_2_alg».proof.Proof.EdgeInitRegion
import proofs.«128167_j73443940762169_2_alg».proof.Proof.EdgeUpdateRegion
import proofs.«128167_j73443940762169_2_alg».proof.Proof.NodeRegion

set_option maxRecDepth 16384

noncomputable section

namespace Cert.KernelIdeal.Whole

open Idealize.ShloMosaic Idealize.ShloMosaic.TcCoe Idealize.SL.Sem
open Cert.KernelIdeal Cert.KernelIdeal.Gen Cert.Dmpnn Cert.KernelIdeal.Regions Cert.Dense

variable (m : (ℓ : Loc nD τ sig) → Buf (Elt Ideal) ℓ) (ρ : Dev nD → PrngReg) (c : Dev nD)

/-- Equal arguments, equal values: three, four and five arguments at once. -/
theorem congr3 {α β γ δ : Type} (f : α → β → γ → δ) {a a' : α} {b b' : β} {d d' : γ}
    (ha : a = a') (hb : b = b') (hd : d = d') : f a b d = f a' b' d' := by subst ha hb hd; rfl
theorem congr4 {α β γ δ ε : Type} (f : α → β → γ → δ → ε) {a a' : α} {b b' : β} {d d' : γ} {e e' : δ}
    (ha : a = a') (hb : b = b') (hd : d = d') (he : e = e') : f a b d e = f a' b' d' e' := by subst ha hb hd he; rfl
theorem congr5 {α β γ δ ε ζ : Type} (f : α → β → γ → δ → ε → ζ) {a a' : α} {b b' : β} {d d' : γ} {e e' : δ} {g g' : ε}
    (ha : a = a') (hb : b = b') (hd : d = d') (he : e = e') (hg : g = g') : f a b d e g = f a' b' d' e' g' := by
  subst ha hb hd he hg; rfl

/-- The first messages, as a function of the arguments. -/
abbrev firstMessages : Arr Ideal Cert.ReferenceIdeal.S800000x128 .f32 :=
  edgeInit (gatherSrc (a0 m c) (srcVec (a1 m c))) (a3 m c) (a5 m c)

/-- The messages after the first round. -/
abbrev round1Messages : Arr Ideal Cert.ReferenceIdeal.S800000x128 .f32 :=
  update (firstMessages m c) (message (firstMessages m c) (srcVec (a1 m c)) (dstVec (a1 m c)) (a2 m c)) (a6 m c)

/-- The messages after the second round. -/
abbrev round2Messages : Arr Ideal Cert.ReferenceIdeal.S800000x128 .f32 :=
  update (firstMessages m c) (message (round1Messages m c) (srcVec (a1 m c)) (dstVec (a1 m c)) (a2 m c)) (a6 m c)

/-- The first region leaves the first messages. -/
theorem first_region : (W2 m ρ c (Proc.devRef .tc main_v23) : Arr Ideal Cert.ReferenceIdeal.S800000x128 .f32)
    = firstMessages m c :=
  (W2_arr m ρ c 4).trans ((edgeInit_array (V1 m ρ) c).trans
    ((congr4 (fun (X : Mat 800000 133) (Y : Mat 800000 14) (W : Mat 133 128) (W' : Mat 14 128) =>
        (fun i => max (mm X W i + mm Y W' i) 0 : Mat 800000 128))
      (first_gathered m ρ c) (first_edgeFeatures m ρ c) (first_w1x m ρ c) (first_w1e m ρ c)).trans
    (edgeInit_bridge _ _ _ slices_S147x128_S133x128_0_0 slices_S147x128_S14x128_133_0)))

/-- What the second region stages: the first messages, the first round's differences, the weights. -/
theorem round1_staged_first : (W3 m ρ c (Proc.devRef .tc main_v23) : Arr Ideal Cert.ReferenceIdeal.S800000x128 .f32)
    = firstMessages m c := (first_at3 m ρ c).trans (first_region m ρ c)
theorem round1_staged_message : (W3 m ρ c (Proc.devRef .tc main_v46) : Arr Ideal Cert.ReferenceIdeal.S800000x128 .f32)
    = message (firstMessages m c) (srcVec (a1 m c)) (dstVec (a1 m c)) (a2 m c) :=
  (round1_message m ρ c).trans (congr4 message (first_region m ρ c) (src_at2 m ρ c) (dst_at2 m ρ c) (rev_at2 m ρ c))

/-- The second region leaves the first round's messages. -/
theorem second_region : (W4 m ρ c (Proc.devRef .tc main_v47) : Arr Ideal Cert.ReferenceIdeal.S800000x128 .f32)
    = round1Messages m c :=
  (W4_arr m ρ c 3).trans ((edgeUpdate1_array (V3 m ρ) c).trans
    ((congr3 (fun (E M : Mat 800000 128) (W : Mat 128 128) => edgeUpdate E M W)
      (round1_staged_first m ρ c) (round1_staged_message m ρ c) (w2_at3 m ρ c)).trans
    (update_bridge _ _ _)))

/-- What the third region stages. -/
theorem round2_staged_first : (W5 m ρ c (Proc.devRef .tc main_v23) : Arr Ideal Cert.ReferenceIdeal.S800000x128 .f32)
    = firstMessages m c := (first_at5 m ρ c).trans (first_region m ρ c)
theorem round2_staged_message : (W5 m ρ c (Proc.devRef .tc main_v70) : Arr Ideal Cert.ReferenceIdeal.S800000x128 .f32)
    = message (round1Messages m c) (srcVec (a1 m c)) (dstVec (a1 m c)) (a2 m c) :=
  (round2_message m ρ c).trans (congr4 message (second_region m ρ c) (src_at4 m ρ c) (dst_at4 m ρ c) (rev_at4 m ρ c))

/-- The third region leaves the second round's messages. -/
theorem third_region : (W6 m ρ c (Proc.devRef .tc main_v71) : Arr Ideal Cert.ReferenceIdeal.S800000x128 .f32)
    = round2Messages m c :=
  (W6_arr m ρ c 3).trans ((edgeUpdate2_array (V5 m ρ) c).trans
    ((congr3 (fun (E M : Mat 800000 128) (W : Mat 128 128) => edgeUpdate E M W)
      (round2_staged_first m ρ c) (round2_staged_message m ρ c) (w2_at5 m ρ c)).trans
    (update_bridge _ _ _)))

/-- What the last region stages besides the features, the weight slabs and the bias row: the last sum at the nodes. -/
theorem staged_sum : (W7 m ρ c (Proc.devRef .tc main_v75) : Arr Ideal Cert.ReferenceIdeal.S50000x128 .f32)
    = nodeSum (round2Messages m c) (dstVec (a1 m c)) :=
  (arriving_sum m ρ c).trans (congrArg₂ nodeSum (third_region m ρ c) (dst_at6 m ρ c))

/-- The last region leaves the node rows. -/
theorem last_region : (W8 m ρ c (Proc.devRef .tc main_v76) : Arr Ideal Cert.ReferenceIdeal.S50000x128 .f32)
    = nodeRows (a0 m c) (a1 m c) (a2 m c) (a3 m c) (a5 m c) (a6 m c) (a7 m c) (a8 m c) :=
  (W8_arr m ρ c 5).trans ((node_array (V7 m ρ) c).trans
    ((congr5 (fun (X : Mat 50000 133) (Y : Mat 50000 128) (W : Mat 133 128) (W' : Mat 128 128) (b : Mat 1 128) =>
        (fun i => max (mm X W i + mm Y W' i + b (ValueIdx.ix2 (0 : Fin 1) (c1 i))) 0 : Mat 50000 128))
      (features_at7 m ρ c) (staged_sum m ρ c) (w3x_at7 m ρ c) (w3v_at7 m ρ c) (biasRow_at7 m ρ c)).trans
    (nodeUpdate_bridge _ _ _ _ slices_S261x128_S133x128_0_0 slices_S261x128_S128x128_133_0 shapeCasts_S128_S1x128)))

/-- The kernel's pooled rows. -/
theorem pooled_value : (W9 m ρ c (Proc.devRef .tc main_v87) : Arr Ideal Cert.ReferenceIdeal.S512x128 .f32)
    = pool (nodeRows (a0 m c) (a1 m c) (a2 m c) (a3 m c) (a5 m c) (a6 m c) (a7 m c) (a8 m c)) (a4 m c) :=
  (last_pooled m ρ c).trans (congrArg₂ pool (last_region m ρ c) (batch_at8 m ρ c))

/-- The kernel's prediction. -/
theorem pred_value : (W9 m ρ c (Proc.devRef .tc main_v97) : Arr Ideal Cert.ReferenceIdeal.S512x1 .f32)
    = head (pool (nodeRows (a0 m c) (a1 m c) (a2 m c) (a3 m c) (a5 m c) (a6 m c) (a7 m c) (a8 m c)) (a4 m c))
        (a9 m c) (a10 m c) (a11 m c) (a12 m c) :=
  (last_pred m ρ c).trans (congr5 head (congrArg₂ pool (last_region m ρ c) (batch_at8 m ρ c))
    (m1w_at8 m ρ c) (m1b_at8 m ρ c) (m2w_at8 m ρ c) (m2b_at8 m ρ c))

end Cert.KernelIdeal.Whole

end
-- ==== Proof.lean ====
/-
  A directed message-passing network on a graph, computed two ways, ends at the same numbers on the extended reals.

  The kernel computes the network in four pipelined regions among stretches of host operations: the first messages of
  the edges, two rounds of message passing, and the node layer are matrix products on the matrix unit, one block of rows
  per grid point, each layer's left operand split into two pieces with a product apiece; gathers, sums at the nodes,
  the per-graph average and the head stay on the host. The reference computes every layer on the host with one dot
  product over the two pieces laid side by side. On the extended reals a change of float format is the identity, a
  matrix product into a zero accumulator is the plain sum of products, and the product of `[A | B]` with `W` is `A`
  times the first rows of `W` plus `B` times the rest — a finite sum cut in two, true of every extended real. So no
  entry has to be finite for the two results to agree: the precondition is only carried, never opened.

  Frames: the kernel's two are generated whole; the reference's is its generated run with the results dropped.
  The idealization rewrote no operation, so `preserves` has nothing to say.
-/
import proofs.«128167_j73443940762169_2_alg».proof.Defs
import proofs.«128167_j73443940762169_2_alg».proof.Proof.Gen.Kernel
import proofs.«128167_j73443940762169_2_alg».proof.Proof.Gen.Kernel.Frame
import proofs.«128167_j73443940762169_2_alg».proof.Proof.Gen.KernelIdeal
import proofs.«128167_j73443940762169_2_alg».proof.Proof.Gen.KernelIdeal.Frame
import proofs.«128167_j73443940762169_2_alg».proof.Proof.Gen.ReferenceIdeal
import proofs.«128167_j73443940762169_2_alg».proof.Proof.Gen.ReferenceIdeal.Run
import proofs.«128167_j73443940762169_2_alg».proof.Proof.Gen.ReferenceIdeal.Read
import proofs.«128167_j73443940762169_2_alg».proof.Proof.Gen.Pre_finite_inputs
import proofs.«128167_j73443940762169_2_alg».proof.Proof.KernelRun
import proofs.«128167_j73443940762169_2_alg».proof.Proof.KernelValue
import proofs.«128167_j73443940762169_2_alg».proof.Proof.Stages
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel [Cert.Kernel.Facts] [Cert.Pre_finite_inputs.Facts] : Cert.frame_Kernel :=
  fun m ρ _ => Cert.Kernel.Gen.frame m ρ

/-- The idealized kernel runs, and its arguments end unchanged. -/
theorem frame_kernelIdeal [Cert.KernelIdeal.Facts] [Cert.Pre_finite_inputs.Facts] : Cert.frame_KernelIdeal :=
  fun m ρ _ => Cert.KernelIdeal.Gen.frame m ρ

/-- The reference runs, and its arguments end unchanged: its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The two idealized programs, from memories agreeing on the arguments, end with the same prediction and the same
    pooled rows: both are the head and the per-graph average of the network's node rows of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W9 m ρ c (Proc.devRef .tc Cert.KernelIdeal.main_v97),
    fun c => Cert.KernelIdeal.Gen.W9 m ρ c (Proc.devRef .tc Cert.KernelIdeal.main_v87), ?_, ?_⟩
  · refine (θ_run Cert.KernelIdeal.defs _ _).mono (fun r h c => ?_) (Cert.KernelIdeal.Whole.run_at m ρ)
    exact ⟨h c Cert.KernelIdeal.main_v97 (by decide), h c Cert.KernelIdeal.main_v87 (by decide),
      (h c Cert.KernelIdeal.main_arg0 (by decide)).trans (Cert.KernelIdeal.Gen.W9_main_arg0 m ρ c),
      (h c Cert.KernelIdeal.main_arg1 (by decide)).trans (Cert.KernelIdeal.Gen.W9_main_arg1 m ρ c),
      (h c Cert.KernelIdeal.main_arg2 (by decide)).trans (Cert.KernelIdeal.Gen.W9_main_arg2 m ρ c),
      (h c Cert.KernelIdeal.main_arg3 (by decide)).trans (Cert.KernelIdeal.Gen.W9_main_arg3 m ρ c),
      (h c Cert.KernelIdeal.main_arg4 (by decide)).trans (Cert.KernelIdeal.Gen.W9_main_arg4 m ρ c),
      (h c Cert.KernelIdeal.main_arg5 (by decide)).trans (Cert.KernelIdeal.Gen.W9_main_arg5 m ρ c),
      (h c Cert.KernelIdeal.main_arg6 (by decide)).trans (Cert.KernelIdeal.Gen.W9_main_arg6 m ρ c),
      (h c Cert.KernelIdeal.main_arg7 (by decide)).trans (Cert.KernelIdeal.Gen.W9_main_arg7 m ρ c),
      (h c Cert.KernelIdeal.main_arg8 (by decide)).trans (Cert.KernelIdeal.Gen.W9_main_arg8 m ρ c),
      (h c Cert.KernelIdeal.main_arg9 (by decide)).trans (Cert.KernelIdeal.Gen.W9_main_arg9 m ρ c),
      (h c Cert.KernelIdeal.main_arg10 (by decide)).trans (Cert.KernelIdeal.Gen.W9_main_arg10 m ρ c),
      (h c Cert.KernelIdeal.main_arg11 (by decide)).trans (Cert.KernelIdeal.Gen.W9_main_arg11 m ρ c),
      (h c Cert.KernelIdeal.main_arg12 (by decide)).trans (Cert.KernelIdeal.Gen.W9_main_arg12 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12⟩ := hagree c
      rw [Cert.ReferenceIdeal.Read.val_main_v92_eq, Cert.Dmpnn.ref_pred, e0, e1, e2, e3, e4, e5, e6, e7, e8, e9, e10, e11, e12]
      exact (Cert.KernelIdeal.Whole.pred_value m ρ c).symm
    · obtain ⟨e0, e1, e2, e3, e4, e5, e6, e7, e8, e9, e10, e11, e12⟩ := hagree c
      rw [Cert.ReferenceIdeal.Read.val_main_v83_eq, Cert.Dmpnn.ref_pooled, e0, e1, e2, e3, e4, e5, e6, e7, e8]
      exact (Cert.KernelIdeal.Whole.pooled_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
